-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v149)) (v1 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x64 : Shape := ⟨2, ![5000, 64]⟩
abbrev S200000x64 : Shape := ⟨2, ![200000, 64]⟩
abbrev S64x128 : Shape := ⟨2, ![64, 128]⟩
abbrev S128 : Shape := ⟨1, ![128]⟩
abbrev S2x3x128x128 : Shape := ⟨4, ![2, 3, 128, 128]⟩
abbrev S2x3x128 : Shape := ⟨3, ![2, 3, 128]⟩
abbrev S1000000 : Shape := ⟨1, ![1000000]⟩
abbrev S2000000 : Shape := ⟨1, ![2000000]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_

variable [Facts]

def fn_part2 {F : FTy → Type} [FloatOps F] (main_arg7 : FVec F S2x3x128 .f32) (main_arg8 : FVec F S2x3x128x128 .f32) (main_v33 : IVec S_ 1) : IVec S_ 1 :=
  let main_v34 : FVec F S2x3x128 .f32 := Host.absf main_arg7
  let main_cst_12 : FVec F S_ .f32 := constant S_ .f32 0x7F800000#32
  let main_v35 : FVec F S2x3x128 .f32 := broadcastInDim S2x3x128 ![] bcast_S_S2x3x128 main_cst_12
  let main_v36 : IVec S2x3x128 1 := cmpf .olt main_v34 main_v35
  let main_c_13 : IVec S_ 1 := constantI S_ 1 1#1
  let main_v37 : IVec S_ 1 := (fun x v => Host.reduce IntOp.andi x v reducesTo_S2x3x128_S_d0_1_2 h_S_) main_v36 main_c_13
  let main_v38 : IVec S_ 1 := andi main_v33 main_v37
  let main_v39 : FVec F S2x3x128x128 .f32 := Host.absf main_arg8
  let main_cst_14 : FVec F S_ .f32 := constant S_ .f32 0x7F800000#32
  let main_v40 : FVec F S2x3x128x128 .f32 := broadcastInDim S2x3x128x128 ![] bcast_S_S2x3x128x128 main_cst_14
  let main_v41 : IVec S2x3x128x128 1 := cmpf .olt main_v39 main_v40
  let main_c_15 : IVec S_ 1 := constantI S_ 1 1#1
  let main_v42 : IVec S_ 1 := (fun x v => Host.reduce IntOp.andi x v reducesTo_S2x3x128x128_S_d0_1_2_3 h_S_) main_v41 main_c_15
  let main_v43 : IVec S_ 1 := andi main_v38 main_v42
  main_v43

def fn_part1 {F : FTy → Type} [FloatOps F] (main_arg4 : FVec F S64x128 .f32) (main_arg5 : FVec F S128 .f32) (main_arg6 : FVec F S2x3x128x128 .f32) (main_arg7 : FVec F S2x3x128 .f32) (main_arg8 : FVec F S2x3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x3x128x128 .f32 := Host.absf main_arg6
  let main_cst_10 : FVec F S_ .f32 := constant S_ .f32 0x7F800000#32
  let main_v30 : FVec F S2x3x128x128 .f32 := broadcastInDim S2x3x128x128 ![] bcast_S_S2x3x128x128 main_cst_10
  let main_v31 : IVec S2x3x128x128 1 := cmpf .olt main_v29 main_v30
  let main_c_11 : IVec S_ 1 := constantI S_ 1 1#1
  let main_v32 : IVec S_ 1 := (fun x v => Host.reduce IntOp.andi x v reducesTo_S2x3x128x128_S_d0_1_2_3 h_S_) main_v31 main_c_11
  let main_v33 : IVec S_ 1 := andi main_v28 main_v32
  fn_part2 (F := F) main_arg7 main_arg8 main_v33

def fn {F : FTy → Type} [FloatOps F] (main_arg0 : FVec F S5000x64 .f32) (main_arg1 : FVec F S200000x64 .f32) (main_arg2 : FVec F S64x128 .f32) (main_arg3 : FVec F S128 .f32) (main_arg4 : FVec F S64x128 .f32) (main_arg5 : FVec F S128 .f32) (main_arg6 : FVec F S2x3x128x128 .f32) (main_arg7 : FVec F S2x3x128 .f32) (main_arg8 : FVec F S2x3x128x128 .f32) (main_arg9 : IVec S1000000 32) (main_arg10 : IVec S1000000 32) (main_arg11 : IVec S1000000 32) (main_arg12 : IVec S1000000 32) (main_arg13 : IVec S2000000 32) (main_arg14 : IVec S2000000 32) : IVec S_ 1 :=
  let main_v0 : FVec F S5000x64 .f32 := Host.absf main_arg0
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S5000x64 : Shape := ⟨2, ![5000, 64]⟩
abbrev S200000x64 : Shape := ⟨2, ![200000, 64]⟩
abbrev S64x128 : Shape := ⟨2, ![64, 128]⟩
abbrev S128 : Shape := ⟨1, ![128]⟩
abbrev S2x3x128x128 : Shape := ⟨4, ![2, 3, 128, 128]⟩
abbrev S2x3x128 : Shape := ⟨3, ![2, 3, 128]⟩
abbrev S1000000 : Shape := ⟨1, ![1000000]⟩
abbrev S2000000 : Shape := ⟨1, ![2000000]⟩
abbrev S5000x128 : Shape := ⟨2, ![5000, 128]⟩
abbrev S1x128 : Shape := ⟨2, ![1, 128]⟩
abbrev S200000x128 : Shape := ⟨2, ![200000, 128]⟩
abbrev S_ : Shape := ⟨0, ![]⟩
abbrev S1000000x1 : Shape := ⟨2, ![1000000, 1]⟩
abbrev S1000000x128 : Shape := ⟨2, ![1000000, 128]⟩
abbrev S200000x1 : Shape := ⟨2, ![200000, 1]⟩
abbrev S5000x1 : Shape := ⟨2, ![5000, 1]⟩
abbrev S2000000x1 : Shape := ⟨2, ![2000000, 1]⟩
abbrev S2000000x128 : Shape := ⟨2, ![2000000, 128]⟩
abbrev S1x1x128x128 : Shape := ⟨4, ![1, 1, 128, 128]⟩
abbrev S128x128 : Shape := ⟨2, ![128, 128]⟩
abbrev S1x1x128 : Shape := ⟨3, ![1, 1, 128]⟩

abbrev nBuf : Space → Nat
  | .hbm => 201
  | .vmem => 50
  | .smem => 0
  | _ => 0

abbrev hbmTy0_0 (i : Nat) : BufTy := match i % 128 with
  | 0 => ⟨S5000x64, .f32⟩
  | 1 => ⟨S200000x64, .f32⟩
  | 2 => ⟨S64x128, .f32⟩
  | 3 => ⟨S128, .f32⟩
  | 4 => ⟨S64x128, .f32⟩
  | 5 => ⟨S128, .f32⟩
  | 6 => ⟨S2x3x128x128, .f32⟩
  | 7 => ⟨S2x3x128, .f32⟩
  | 8 => ⟨S2x3x128x128, .f32⟩
  | 9 => ⟨S1000000, .i32⟩
  | 10 => ⟨S1000000, .i32⟩
  | 11 => ⟨S1000000, .i32⟩
  | 12 => ⟨S1000000, .i32⟩
  | 13 => ⟨S2000000, .i32⟩
  | 14 => ⟨S2000000, .i32⟩
  | 15 => ⟨S5000x128, .f32⟩
  | 16 => ⟨S200000x128, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x128, .f32⟩
  | 26 => ⟨S_, .f32⟩
  | 27 => ⟨S200000x128, .f32⟩
  | 28 => ⟨S1000000x1, .i32⟩
  | 29 => ⟨S200000x128, .f32⟩
  | 30 => ⟨S_, .f32⟩
  | 31 => ⟨S1000000x1, .f32⟩
  | 32 => ⟨S_, .f32⟩
  | 33 => ⟨S200000x1, .f32⟩
  | 34 => ⟨S1000000x1, .i32⟩
  | 35 => ⟨S200000x1, .f32⟩
  | 36 => ⟨S_, .f32⟩
  | 37 => ⟨S200000x1, .f32⟩
  | 38 => ⟨S200000x1, .f32⟩
  | 39 => ⟨S200000x128, .f32⟩
  | 40 => ⟨S200000x128, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x128, .f32⟩
  | 50 => ⟨S_, .f32⟩
  | 51 => ⟨S5000x128, .f32⟩
  | 52 => ⟨S1000000x1, .i32⟩
  | 53 => ⟨S5000x128, .f32⟩
  | 54 => ⟨S_, .f32⟩
  | 55 => ⟨S1000000x1, .f32⟩
  | 56 => ⟨S_, .f32⟩
  | 57 => ⟨S5000x1, .f32⟩
  | 58 => ⟨S1000000x1, .i32⟩
  | 59 => ⟨S5000x1, .f32⟩
  | 60 => ⟨S_, .f32⟩
  | 61 => ⟨S5000x1, .f32⟩
  | 62 => ⟨S5000x1, .f32⟩
  | 63 => ⟨S5000x128, .f32⟩
  | 64 => ⟨S5000x128, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x128, .f32⟩
  | 74 => ⟨S_, .f32⟩
  | 75 => ⟨S200000x128, .f32⟩
  | 76 => ⟨S2000000x1, .i32⟩
  | 77 => ⟨S200000x128, .f32⟩
  | 78 => ⟨S_, .f32⟩
  | 79 => ⟨S2000000x1, .f32⟩
  | 80 => ⟨S_, .f32⟩
  | 81 => ⟨S200000x1, .f32⟩
  | 82 => ⟨S2000000x1, .i32⟩
  | 83 => ⟨S200000x1, .f32⟩
  | 84 => ⟨S_, .f32⟩
  | 85 => ⟨S200000x1, .f32⟩
  | 86 => ⟨S200000x1, .f32⟩
  | 87 => ⟨S200000x128, .f32⟩
  | 88 => ⟨S200000x128, .f32⟩
  | 89 => ⟨S1x1x128x128, .f32⟩
  | 90 => ⟨S128x128, .f32⟩
  | 91 => ⟨S1x1x128, .f32⟩
  | 92 => ⟨S128, .f32⟩
  | 93 => ⟨S1x1x128x128, .f32⟩
  | 94 => ⟨S128x128, .f32⟩
  | 95 => ⟨S1x1x128x128, .f32⟩
  | 96 => ⟨S128x128, .f32⟩
  | 97 => ⟨S1x1x128, .f32⟩
  | 98 => ⟨S128, .f32⟩
  | 99 => ⟨S1x1x128x128, .f32⟩
  | 100 => ⟨S128x128, .f32⟩
  | 101 => ⟨S200000x128, .f32⟩
  | 102 => ⟨S1x1x128x128, .f32⟩
  | 103 => ⟨S128x128, .f32⟩
  | 104 => ⟨S1x1x128, .f32⟩
  | 105 => ⟨S128, .f32⟩
  | 106 => ⟨S1x1x128x128, .f32⟩
  | 107 => ⟨S128x128, .f32⟩
  | 108 => ⟨S5000x128, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x128, .f32⟩
  | 118 => ⟨S_, .f32⟩
  | 119 => ⟨S200000x128, .f32⟩
  | 120 => ⟨S1000000x1, .i32⟩
  | 121 => ⟨S200000x128, .f32⟩
  | 122 => ⟨S_, .f32⟩
  | 123 => ⟨S1000000x1, .f32⟩
  | 124 => ⟨S_, .f32⟩
  | 125 => ⟨S200000x1, .f32⟩
  | 126 => ⟨S1000000x1, .i32⟩
  | 127 => ⟨S200000x1, .f32⟩
  | _ => ⟨S5000x64, .f32⟩

abbrev hbmTy0_1 (i : Nat) : BufTy := match i % 128 with
  | 0 => ⟨S_, .f32⟩
  | 1 => ⟨S200000x1, .f32⟩
  | 2 => ⟨S200000x1, .f32⟩
  | 3 => ⟨S200000x128, .f32⟩
  | 4 => ⟨S200000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S_, .f32⟩
  | 15 => ⟨S5000x128, .f32⟩
  | 16 => ⟨S1000000x1, .i32⟩
  | 17 => ⟨S5000x128, .f32⟩
  | 18 => ⟨S_, .f32⟩
  | 19 => ⟨S1000000x1, .f32⟩
  | 20 => ⟨S_, .f32⟩
  | 21 => ⟨S5000x1, .f32⟩
  | 22 => ⟨S1000000x1, .i32⟩
  | 23 => ⟨S5000x1, .f32⟩
  | 24 => ⟨S_, .f32⟩
  | 25 => ⟨S5000x1, .f32⟩
  | 26 => ⟨S5000x1, .f32⟩
  | 27 => ⟨S5000x128, .f32⟩
  | 28 => ⟨S5000x128, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x128, .f32⟩
  | 38 => ⟨S_, .f32⟩
  | 39 => ⟨S200000x128, .f32⟩
  | 40 => ⟨S2000000x1, .i32⟩
  | 41 => ⟨S200000x128, .f32⟩
  | 42 => ⟨S_, .f32⟩
  | 43 => ⟨S2000000x1, .f32⟩
  | 44 => ⟨S_, .f32⟩
  | 45 => ⟨S200000x1, .f32⟩
  | 46 => ⟨S2000000x1, .i32⟩
  | 47 => ⟨S200000x1, .f32⟩
  | 48 => ⟨S_, .f32⟩
  | 49 => ⟨S200000x1, .f32⟩
  | 50 => ⟨S200000x1, .f32⟩
  | 51 => ⟨S200000x128, .f32⟩
  | 52 => ⟨S200000x128, .f32⟩
  | 53 => ⟨S1x1x128x128, .f32⟩
  | 54 => ⟨S128x128, .f32⟩
  | 55 => ⟨S1x1x128, .f32⟩
  | 56 => ⟨S128, .f32⟩
  | 57 => ⟨S1x1x128x128, .f32⟩
  | 58 => ⟨S128x128, .f32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S200000x128, .f32⟩
  | 66 => ⟨S1x1x128x128, .f32⟩
  | 67 => ⟨S128x128, .f32⟩
  | 68 => ⟨S1x1x128, .f32⟩
  | 69 => ⟨S128, .f32⟩
  | 70 => ⟨S1x1x128x128, .f32⟩
  | 71 => ⟨S128x128, .f32⟩
  | 72 => ⟨S5000x128, .f32⟩
  | _ => ⟨S5000x64, .f32⟩

abbrev hbmTy (i : Nat) : BufTy := match i / 128 with
  | 0 => hbmTy0_0 i
  | 1 => hbmTy0_1 i
  | _ => ⟨S5000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S64x128, .f32⟩
  | .local _ .vmem, ⟨2, _⟩ => ⟨S128, .f32⟩
  | .local _ .vmem, ⟨3, _⟩ => ⟨S5000x128, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128, .f32⟩
  | .local _ .vmem, ⟨48, _⟩ => ⟨S128x128, .f32⟩
  | .local _ .vmem, ⟨49, _⟩ => ⟨S5000x128, .f32⟩
  | _, _ => ⟨S5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_cst_20 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_22 : Ref sig .tc := ⟨.hbm, 133, rfl⟩
abbrev main_v94 : Ref sig .tc := ⟨.hbm, 134, rfl⟩
abbrev main_v95 : Ref sig .tc := ⟨.hbm, 135, rfl⟩
abbrev main_c_23 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_25 : Ref sig .tc := ⟨.hbm, 146, rfl⟩
abbrev main_v104 : Ref sig .tc := ⟨.hbm, 147, rfl⟩
abbrev main_cst_26 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_27 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_28 : Ref sig .tc := ⟨.hbm, 157, rfl⟩
abbrev main_v112 : Ref sig .tc := ⟨.hbm, 158, rfl⟩
abbrev main_v113 : Ref sig .tc := ⟨.hbm, 159, rfl⟩
abbrev main_c_29 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_30 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_31 : Ref sig .tc := ⟨.hbm, 170, rfl⟩
abbrev main_v122 : Ref sig .tc := ⟨.hbm, 171, rfl⟩
abbrev main_cst_32 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_33 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg9_1 : Ref sig .tc := ⟨.vmem, 43, rfl⟩
abbrev cc5_stg0_0 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem9_1 : DmaSem sig := 43
abbrev cc5_sem0_0 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S5000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S5000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5000x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S5000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S5000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S5000x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S1000000x1 : S_.BroadcastsInDim S1000000x1 (![] : Fin 0 → Fin S1000000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S_S5000x128 : S_.BroadcastsInDim S5000x128 (![] : Fin 0 → Fin S5000x128.rank)
  bcast_S_S5000x1 : S_.BroadcastsInDim S5000x1 (![] : Fin 0 → Fin S5000x1.rank)
  bcast_S5000x1_S5000x128_0_1 : S5000x1.BroadcastsInDim S5000x128 (![0, 1] : Fin 2 → Fin S5000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x3x128x128_S1x1x128x128_0_2_0_0 : S2x3x128x128.Slices ![0, 2, 0, 0] S1x1x128x128
  slices_S2x3x128_S1x1x128_0_2_0 : S2x3x128.Slices ![0, 2, 0] S1x1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  dot_S5000x64_S64x128_S5000x128_1_0_0_1_n_n_wf : DotDims.WF S5000x64 S64x128 S5000x128 [1] [0] [0] [1] [] []
  gather_S5000x128_S1000000x1_S1000000x128_1_0_n_n_0_1_1128_wf : GatherDims.WF S5000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000x1_S1000000x1_S1000000x1_1_0_0_1_wf : ScatterDims.WF S200000x1 S1000000x1 S1000000x1 [1] [0] [0] 1
  gather_S200000x128_S1000000x1_S1000000x128_1_0_n_n_0_1_1128_wf : GatherDims.WF S200000x128 S1000000x1 S1000000x128 [1] [0] [] [0] [] 1 ![1, 128]
  scatter_S5000x128_S1000000x1_S1000000x128_1_0_0_1_wf : ScatterDims.WF S5000x128 S1000000x1 S1000000x128 [1] [0] [0] 1
  scatter_S5000x1_S1000000x1_S1000000x1_1_0_0_1_wf : ScatterDims.WF S5000x1 S1000000x1 S1000000x1 [1] [0] [0] 1
  gather_S200000x128_S2000000x1_S2000000x128_1_0_n_n_0_1_1128_wf : GatherDims.WF S200000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000x1_S2000000x1_S2000000x1_1_0_0_1_wf : ScatterDims.WF S200000x1 S2000000x1 S2000000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S5000x64.size a
  hwx0_0 : ∀ i : grid0.Coords, EltTy.bits .f32 = 32 ∨ (Rect.block (s := S5000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S5000x128.size a
  hwx0_3 : ∀ i : grid0.Coords, EltTy.bits .f32 = 32 ∨ (Rect.block (s := S5000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S200000x128.size a
  hwx1_3 : ∀ i : grid1.Coords, EltTy.bits .f32 = 32 ∨ (Rect.block (s := S200000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S200000x128.size a
  hwx2_2 : ∀ i : grid2.Coords, EltTy.bits .f32 = 32 ∨ (Rect.block (s := S200000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S200000x128.size a
  hwx2_9 : ∀ i : grid2.Coords, EltTy.bits .f32 = 32 ∨ (Rect.block (s := S200000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S5000x128.size a
  hwx3_0 : ∀ i : grid3.Coords, EltTy.bits .f32 = 32 ∨ (Rect.block (s := S5000x128) S5000x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S5000x128.size a
  hwx3_1 : ∀ i : grid3.Coords, EltTy.bits .f32 = 32 ∨ (Rect.block (s := S5000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S5000x128.size a
  hwx3_5 : ∀ i : grid3.Coords, EltTy.bits .f32 = 32 ∨ (Rect.block (s := S5000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S200000x128.size a
  hwx4_2 : ∀ i : grid4.Coords, EltTy.bits .f32 = 32 ∨ (Rect.block (s := S200000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S200000x128.size a
  hwx4_9 : ∀ i : grid4.Coords, EltTy.bits .f32 = 32 ∨ (Rect.block (s := S200000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S5000x128.size a
  hwx5_0 : ∀ i : grid5.Coords, EltTy.bits .f32 = 32 ∨ (Rect.block (s := S5000x128) S5000x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S5000x128.size a
  hwx5_1 : ∀ i : grid5.Coords, EltTy.bits .f32 = 32 ∨ (Rect.block (s := S5000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S5000x128.size a
  hwx5_5 : ∀ i : grid5.Coords, EltTy.bits .f32 = 32 ∨ (Rect.block (s := S5000x128) S5000x128.size (cc5_transform_5 i) (hinb5_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S5000x128_S1000000x1_S1000000x128_1_0_n_n_0_1_1128 : GatherDims S5000x128 S1000000x1 S1000000x128 where
  offsetDims := [1]
  collapsedSliceDims := [0]
  operandBatchingDims := []
  startIndicesBatchingDims := []
  startIndexMap := [0]
  indexVectorDim := 1
  sliceSizes := ![1, 128]
  wf := gather_S5000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def scatter_S5000x1_S1000000x1_S1000000x1_1_0_0_1 : ScatterDims S5000x1 S1000000x1 S1000000x1 where
  updateWindowDims := [1]
  insertedWindowDims := [0]
  scatterDimsToOperandDims := [0]
  indexVectorDim := 1
  wf := scatter_S5000x1_S1000000x1_S1000000x1_1_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v68) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v37) S5000x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v0) S5000x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v93) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v131) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v133) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v135) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v137) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v139) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v141) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v142) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v111) S5000x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v75) S5000x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v144) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v146) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v148) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v149) S5000x128.size cc5_transform_5 reads5_5 true false 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S5000x64 : Shape := ⟨2, ![5000, 64]⟩
abbrev S200000x64 : Shape := ⟨2, ![200000, 64]⟩
abbrev S64x128 : Shape := ⟨2, ![64, 128]⟩
abbrev S128 : Shape := ⟨1, ![128]⟩
abbrev S2x3x128x128 : Shape := ⟨4, ![2, 3, 128, 128]⟩
abbrev S2x3x128 : Shape := ⟨3, ![2, 3, 128]⟩
abbrev S1000000 : Shape := ⟨1, ![1000000]⟩
abbrev S2000000 : Shape := ⟨1, ![2000000]⟩
abbrev S5000x128 : Shape := ⟨2, ![5000, 128]⟩
abbrev S1x128 : Shape := ⟨2, ![1, 128]⟩
abbrev S200000x128 : Shape := ⟨2, ![200000, 128]⟩
abbrev S1x1x128x128 : Shape := ⟨4, ![1, 1, 128, 128]⟩
abbrev S128x128 : Shape := ⟨2, ![128, 128]⟩
abbrev S1x1x128 : Shape := ⟨3, ![1, 1, 128]⟩
abbrev S_ : Shape := ⟨0, ![]⟩
abbrev S1000000x1 : Shape := ⟨2, ![1000000, 1]⟩
abbrev S1000000x128 : Shape := ⟨2, ![1000000, 128]⟩
abbrev S200000x1 : Shape := ⟨2, ![200000, 1]⟩
abbrev S5000x1 : Shape := ⟨2, ![5000, 1]⟩
abbrev S2000000x1 : Shape := ⟨2, ![2000000, 1]⟩
abbrev S2000000x128 : Shape := ⟨2, ![2000000, 128]⟩

abbrev nBuf : Space → Nat
  | .hbm => 259
  | .vmem => 0
  | .smem => 0
  | _ => 0

abbrev hbmTy0_0 (i : Nat) : BufTy := match i % 128 with
  | 0 => ⟨S5000x64, .f32⟩
  | 1 => ⟨S200000x64, .f32⟩
  | 2 => ⟨S64x128, .f32⟩
  | 3 => ⟨S128, .f32⟩
  | 4 => ⟨S64x128, .f32⟩
  | 5 => ⟨S128, .f32⟩
  | 6 => ⟨S2x3x128x128, .f32⟩
  | 7 => ⟨S2x3x128, .f32⟩
  | 8 => ⟨S2x3x128x128, .f32⟩
  | 9 => ⟨S1000000, .i32⟩
  | 10 => ⟨S1000000, .i32⟩
  | 11 => ⟨S1000000, .i32⟩
  | 12 => ⟨S1000000, .i32⟩
  | 13 => ⟨S2000000, .i32⟩
  | 14 => ⟨S2000000, .i32⟩
  | 15 => ⟨S5000x128, .f32⟩
  | 16 => ⟨S1x128, .f32⟩
  | 17 => ⟨S5000x128, .f32⟩
  | 18 => ⟨S5000x128, .f32⟩
  | 19 => ⟨S200000x128, .f32⟩
  | 20 => ⟨S1x128, .f32⟩
  | 21 => ⟨S200000x128, .f32⟩
  | 22 => ⟨S200000x128, .f32⟩
  | 23 => ⟨S1x1x128x128, .f32⟩
  | 24 => ⟨S128x128, .f32⟩
  | 25 => ⟨S1x1x128, .f32⟩
  | 26 => ⟨S128, .f32⟩
  | 27 => ⟨S1x1x128x128, .f32⟩
  | 28 => ⟨S128x128, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x128, .f32⟩
  | 38 => ⟨S_, .f32⟩
  | 39 => ⟨S200000x128, .f32⟩
  | 40 => ⟨S1000000x1, .i32⟩
  | 41 => ⟨S200000x128, .f32⟩
  | 42 => ⟨S_, .f32⟩
  | 43 => ⟨S1000000x1, .f32⟩
  | 44 => ⟨S_, .f32⟩
  | 45 => ⟨S200000x1, .f32⟩
  | 46 => ⟨S1000000x1, .i32⟩
  | 47 => ⟨S200000x1, .f32⟩
  | 48 => ⟨S_, .f32⟩
  | 49 => ⟨S200000x1, .f32⟩
  | 50 => ⟨S200000x1, .f32⟩
  | 51 => ⟨S200000x128, .f32⟩
  | 52 => ⟨S200000x128, .f32⟩
  | 53 => ⟨S200000x128, .f32⟩
  | 54 => ⟨S1x128, .f32⟩
  | 55 => ⟨S200000x128, .f32⟩
  | 56 => ⟨S200000x128, .f32⟩
  | 57 => ⟨S200000x128, .f32⟩
  | 58 => ⟨S200000x128, .f32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x128, .f32⟩
  | 74 => ⟨S_, .f32⟩
  | 75 => ⟨S5000x128, .f32⟩
  | 76 => ⟨S1000000x1, .i32⟩
  | 77 => ⟨S5000x128, .f32⟩
  | 78 => ⟨S_, .f32⟩
  | 79 => ⟨S1000000x1, .f32⟩
  | 80 => ⟨S_, .f32⟩
  | 81 => ⟨S5000x1, .f32⟩
  | 82 => ⟨S1000000x1, .i32⟩
  | 83 => ⟨S5000x1, .f32⟩
  | 84 => ⟨S_, .f32⟩
  | 85 => ⟨S5000x1, .f32⟩
  | 86 => ⟨S5000x1, .f32⟩
  | 87 => ⟨S5000x128, .f32⟩
  | 88 => ⟨S5000x128, .f32⟩
  | 89 => ⟨S5000x128, .f32⟩
  | 90 => ⟨S1x128, .f32⟩
  | 91 => ⟨S5000x128, .f32⟩
  | 92 => ⟨S5000x128, .f32⟩
  | 93 => ⟨S5000x128, .f32⟩
  | 94 => ⟨S5000x128, .f32⟩
  | 95 => ⟨S1x1x128x128, .f32⟩
  | 96 => ⟨S128x128, .f32⟩
  | 97 => ⟨S1x1x128, .f32⟩
  | 98 => ⟨S128, .f32⟩
  | 99 => ⟨S1x1x128x128, .f32⟩
  | 100 => ⟨S128x128, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x128, .f32⟩
  | 110 => ⟨S_, .f32⟩
  | 111 => ⟨S200000x128, .f32⟩
  | 112 => ⟨S2000000x1, .i32⟩
  | 113 => ⟨S200000x128, .f32⟩
  | 114 => ⟨S_, .f32⟩
  | 115 => ⟨S2000000x1, .f32⟩
  | 116 => ⟨S_, .f32⟩
  | 117 => ⟨S200000x1, .f32⟩
  | 118 => ⟨S2000000x1, .i32⟩
  | 119 => ⟨S200000x1, .f32⟩
  | 120 => ⟨S_, .f32⟩
  | 121 => ⟨S200000x1, .f32⟩
  | 122 => ⟨S200000x1, .f32⟩
  | 123 => ⟨S200000x128, .f32⟩
  | 124 => ⟨S200000x128, .f32⟩
  | 125 => ⟨S200000x128, .f32⟩
  | 126 => ⟨S1x128, .f32⟩
  | 127 => ⟨S200000x128, .f32⟩
  | _ => ⟨S5000x64, .f32⟩

abbrev hbmTy0_1 (i : Nat) : BufTy := match i % 128 with
  | 0 => ⟨S200000x128, .f32⟩
  | 1 => ⟨S200000x128, .f32⟩
  | 2 => ⟨S200000x128, .f32⟩
  | 3 => ⟨S200000x128, .f32⟩
  | 4 => ⟨S_, .f32⟩
  | 5 => ⟨S200000x128, .f32⟩
  | 6 => ⟨S200000x128, .f32⟩
  | 7 => ⟨S_, .f32⟩
  | 8 => ⟨S200000x128, .f32⟩
  | 9 => ⟨S200000x128, .f32⟩
  | 10 => ⟨S_, .f32⟩
  | 11 => ⟨S5000x128, .f32⟩
  | 12 => ⟨S5000x128, .f32⟩
  | 13 => ⟨S1x1x128x128, .f32⟩
  | 14 => ⟨S128x128, .f32⟩
  | 15 => ⟨S1x1x128, .f32⟩
  | 16 => ⟨S128, .f32⟩
  | 17 => ⟨S1x1x128x128, .f32⟩
  | 18 => ⟨S128x128, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S_, .f32⟩
  | 29 => ⟨S200000x128, .f32⟩
  | 30 => ⟨S1000000x1, .i32⟩
  | 31 => ⟨S200000x128, .f32⟩
  | 32 => ⟨S_, .f32⟩
  | 33 => ⟨S1000000x1, .f32⟩
  | 34 => ⟨S_, .f32⟩
  | 35 => ⟨S200000x1, .f32⟩
  | 36 => ⟨S1000000x1, .i32⟩
  | 37 => ⟨S200000x1, .f32⟩
  | 38 => ⟨S_, .f32⟩
  | 39 => ⟨S200000x1, .f32⟩
  | 40 => ⟨S200000x1, .f32⟩
  | 41 => ⟨S200000x128, .f32⟩
  | 42 => ⟨S200000x128, .f32⟩
  | 43 => ⟨S200000x128, .f32⟩
  | 44 => ⟨S1x128, .f32⟩
  | 45 => ⟨S200000x128, .f32⟩
  | 46 => ⟨S200000x128, .f32⟩
  | 47 => ⟨S200000x128, .f32⟩
  | 48 => ⟨S200000x128, .f32⟩
  | 49 => ⟨S1x1x128x128, .f32⟩
  | 50 => ⟨S128x128, .f32⟩
  | 51 => ⟨S1x1x128, .f32⟩
  | 52 => ⟨S128, .f32⟩
  | 53 => ⟨S1x1x128x128, .f32⟩
  | 54 => ⟨S128x128, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S_, .f32⟩
  | 65 => ⟨S5000x128, .f32⟩
  | 66 => ⟨S1000000x1, .i32⟩
  | 67 => ⟨S5000x128, .f32⟩
  | 68 => ⟨S_, .f32⟩
  | 69 => ⟨S1000000x1, .f32⟩
  | 70 => ⟨S_, .f32⟩
  | 71 => ⟨S5000x1, .f32⟩
  | 72 => ⟨S1000000x1, .i32⟩
  | 73 => ⟨S5000x1, .f32⟩
  | 74 => ⟨S_, .f32⟩
  | 75 => ⟨S5000x1, .f32⟩
  | 76 => ⟨S5000x1, .f32⟩
  | 77 => ⟨S5000x128, .f32⟩
  | 78 => ⟨S5000x128, .f32⟩
  | 79 => ⟨S5000x128, .f32⟩
  | 80 => ⟨S1x128, .f32⟩
  | 81 => ⟨S5000x128, .f32⟩
  | 82 => ⟨S5000x128, .f32⟩
  | 83 => ⟨S5000x128, .f32⟩
  | 84 => ⟨S5000x128, .f32⟩
  | 85 => ⟨S1x1x128x128, .f32⟩
  | 86 => ⟨S128x128, .f32⟩
  | 87 => ⟨S1x1x128, .f32⟩
  | 88 => ⟨S128, .f32⟩
  | 89 => ⟨S1x1x128x128, .f32⟩
  | 90 => ⟨S128x128, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x128, .f32⟩
  | 100 => ⟨S_, .f32⟩
  | 101 => ⟨S200000x128, .f32⟩
  | 102 => ⟨S2000000x1, .i32⟩
  | 103 => ⟨S200000x128, .f32⟩
  | 104 => ⟨S_, .f32⟩
  | 105 => ⟨S2000000x1, .f32⟩
  | 106 => ⟨S_, .f32⟩
  | 107 => ⟨S200000x1, .f32⟩
  | 108 => ⟨S2000000x1, .i32⟩
  | 109 => ⟨S200000x1, .f32⟩
  | 110 => ⟨S_, .f32⟩
  | 111 => ⟨S200000x1, .f32⟩
  | 112 => ⟨S200000x1, .f32⟩
  | 113 => ⟨S200000x128, .f32⟩
  | 114 => ⟨S200000x128, .f32⟩
  | 115 => ⟨S200000x128, .f32⟩
  | 116 => ⟨S1x128, .f32⟩
  | 117 => ⟨S200000x128, .f32⟩
  | 118 => ⟨S200000x128, .f32⟩
  | 119 => ⟨S200000x128, .f32⟩
  | 120 => ⟨S200000x128, .f32⟩
  | 121 => ⟨S200000x128, .f32⟩
  | 122 => ⟨S_, .f32⟩
  | 123 => ⟨S200000x128, .f32⟩
  | 124 => ⟨S200000x128, .f32⟩
  | 125 => ⟨S_, .f32⟩
  | 126 => ⟨S200000x128, .f32⟩
  | 127 => ⟨S200000x128, .f32⟩
  | _ => ⟨S5000x64, .f32⟩

abbrev hbmTy0_2 (i : Nat) : BufTy := match i % 128 with
  | 0 => ⟨S_, .f32⟩
  | 1 => ⟨S5000x128, .f32⟩
  | 2 => ⟨S5000x128, .f32⟩
  | _ => ⟨S5000x64, .f32⟩

abbrev hbmTy (i : Nat) : BufTy := match i / 128 with
  | 0 => hbmTy0_0 i
  | 1 => hbmTy0_1 i
  | 2 => hbmTy0_2 i
  | _ => ⟨S5000x64, .f32⟩

abbrev bufTy : (tb : Table) → Fin (tcTables nBuf tb) → BufTy
  | .hbm, ⟨i, _⟩ => hbmTy i
  | _, _ => ⟨S5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_4 : Ref sig .tc := ⟨.hbm, 65, rfl⟩
abbrev main_v44 : Ref sig .tc := ⟨.hbm, 66, rfl⟩
abbrev main_v45 : Ref sig .tc := ⟨.hbm, 67, rfl⟩
abbrev main_c_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_10 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_call0_cst : Ref sig .tc := ⟨.hbm, 135, rfl⟩
abbrev main_call0_v0 : Ref sig .tc := ⟨.hbm, 136, rfl⟩
abbrev main_v101 : Ref sig .tc := ⟨.hbm, 137, rfl⟩
abbrev main_call1_cst : Ref sig .tc := ⟨.hbm, 138, rfl⟩
abbrev main_call1_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_17 : Ref sig .tc := ⟨.hbm, 147, rfl⟩
abbrev main_v109 : Ref sig .tc := ⟨.hbm, 148, rfl⟩
abbrev main_v110 : Ref sig .tc := ⟨.hbm, 149, rfl⟩
abbrev main_c_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_19 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_20 : Ref sig .tc := ⟨.hbm, 160, rfl⟩
abbrev main_v119 : Ref sig .tc := ⟨.hbm, 161, rfl⟩
abbrev main_cst_21 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_22 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_c_23 : Ref sig .tc := ⟨.hbm, 183, rfl⟩
abbrev main_v139 : Ref sig .tc := ⟨.hbm, 184, rfl⟩
abbrev main_v140 : Ref sig .tc := ⟨.hbm, 185, rfl⟩
abbrev main_c_24 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_25 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_26 : Ref sig .tc := ⟨.hbm, 196, rfl⟩
abbrev main_v149 : Ref sig .tc := ⟨.hbm, 197, rfl⟩
abbrev main_cst_27 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_28 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_c_29 : Ref sig .tc := ⟨.hbm, 219, rfl⟩
abbrev main_v169 : Ref sig .tc := ⟨.hbm, 220, rfl⟩
abbrev main_v170 : Ref sig .tc := ⟨.hbm, 221, rfl⟩
abbrev main_c_30 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_31 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_32 : Ref sig .tc := ⟨.hbm, 232, rfl⟩
abbrev main_v179 : Ref sig .tc := ⟨.hbm, 233, rfl⟩
abbrev main_cst_33 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_cst_34 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_cst_35 : Ref sig .tc := ⟨.hbm, 250, rfl⟩
abbrev main_v194 : Ref sig .tc := ⟨.hbm, 251, rfl⟩
abbrev main_v195 : Ref sig .tc := ⟨.hbm, 252, rfl⟩
abbrev main_call2_cst : Ref sig .tc := ⟨.hbm, 253, rfl⟩
abbrev main_call2_v0 : Ref sig .tc := ⟨.hbm, 254, rfl⟩
abbrev main_v196 : Ref sig .tc := ⟨.hbm, 255, rfl⟩
abbrev main_call3_cst : Ref sig .tc := ⟨.hbm, 256, rfl⟩
abbrev main_call3_v0 : Ref sig .tc := ⟨.hbm, 257, rfl⟩
abbrev main_v197 : Ref sig .tc := ⟨.hbm, 258, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S1x128_S200000x128_0_1 : S1x128.BroadcastsInDim S200000x128 (![0, 1] : Fin 2 → Fin S200000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S1000000x1 : S_.BroadcastsInDim S1000000x1 (![] : Fin 0 → Fin S1000000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  slices_S2x3x128x128_S1x1x128x128_0_1_0_0 : S2x3x128x128.Slices ![0, 1, 0, 0] S1x1x128x128
  slices_S2x3x128_S1x1x128_0_1_0 : S2x3x128.Slices ![0, 1, 0] S1x1x128
  bcast_S_S5000x128 : S_.BroadcastsInDim S5000x128 (![] : Fin 0 → Fin S5000x128.rank)
  bcast_S_S5000x1 : S_.BroadcastsInDim S5000x1 (![] : Fin 0 → Fin S5000x1.rank)
  bcast_S5000x1_S5000x128_0_1 : S5000x1.BroadcastsInDim S5000x128 (![0, 1] : Fin 2 → Fin S5000x128.rank)
  slices_S2x3x128x128_S1x1x128x128_0_2_0_0 : S2x3x128x128.Slices ![0, 2, 0, 0] S1x1x128x128
  slices_S2x3x128_S1x1x128_0_2_0 : S2x3x128.Slices ![0, 2, 0] S1x1x128
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  dot_S5000x64_S64x128_S5000x128_1_0_0_1_n_n_wf : DotDims.WF S5000x64 S64x128 S5000x128 [1] [0] [0] [1] [] []
  dot_S200000x64_S64x128_S200000x128_1_0_0_1_n_n_wf : DotDims.WF S200000x64 S64x128 S200000x128 [1] [0] [0] [1] [] []
  gather_S5000x128_S1000000x1_S1000000x128_1_0_n_n_0_1_1128_wf : GatherDims.WF S5000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000x1_S1000000x1_S1000000x1_1_0_0_1_wf : ScatterDims.WF S200000x1 S1000000x1 S1000000x1 [1] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S5000x128_S1000000x1_S1000000x128_1_0_0_1_wf : ScatterDims.WF S5000x128 S1000000x1 S1000000x128 [1] [0] [0] 1
  scatter_S5000x1_S1000000x1_S1000000x1_1_0_0_1_wf : ScatterDims.WF S5000x1 S1000000x1 S1000000x1 [1] [0] [0] 1
  dot_S5000x128_S128x128_S5000x128_1_0_0_1_n_n_wf : DotDims.WF S5000x128 S128x128 S5000x128 [1] [0] [0] [1] [] []
  gather_S200000x128_S2000000x1_S2000000x128_1_0_n_n_0_1_1128_wf : GatherDims.WF S200000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000x1_S2000000x1_S2000000x1_1_0_0_1_wf : ScatterDims.WF S200000x1 S2000000x1 S2000000x1 [1] [0] [0] 1

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S5000x128_S1000000x1_S1000000x128_1_0_n_n_0_1_1128 : GatherDims S5000x128 S1000000x1 S1000000x128 where
  offsetDims := [1]
  collapsedSliceDims := [0]
  operandBatchingDims := []
  startIndicesBatchingDims := []
  startIndexMap := [0]
  indexVectorDim := 1
  sliceSizes := ![1, 128]
  wf := gather_S5000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def scatter_S5000x1_S1000000x1_S1000000x1_1_0_0_1 : ScatterDims S5000x1 S1000000x1 S1000000x1 where
  updateWindowDims := [1]
  insertedWindowDims := [0]
  scatterDimsToOperandDims := [0]
  indexVectorDim := 1
  wf := scatter_S5000x1_S1000000x1_S1000000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf

class Facts : Prop extends Facts₀ where

variable [Facts]
-- ==== Proof.KernelRun.lean ====
/-
  The idealized kernel's run with its two results named.

  The program is six kernel launches among four stretches of host operations.  The contents of every buffer at each
  boundary form a chain: a launch replaces its arrays by what its write-backs leave, a host stretch replaces each
  operation's result buffer by the operation's value.  Every weakly fair execution ends with every unscoped buffer at the
  chain's last contents; here the two result buffers (the species features after the last single-relation update, the
  gene features after the last two-relation update) are read off that final state beside the argument arrays.
-/
import proofs.«171973_j46256797778370_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the species result and the gene result end at the last
    boundary's contents of their buffers, and the fifteen arguments end as launched. -/
theorem run : θ_run defs (onTc (τ := τ) (main (F := F))) ⟨m, fun _ => 0, ρ⟩ (fun r => ∀ c : Dev nD,
      r.2.mem ((c.tc : Thread nD τ).loc main_v149) = W10 m ρ c (Proc.devRef .tc main_v149)
      ∧ r.2.mem ((c.tc : Thread nD τ).loc main_v142) = W10 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v149 (by decide)),
       h c _ (mem_uc main_v142 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Whole

end
-- ==== Proof.Sums.lean ====
/-
  Contractions and biases read at an index, on the extended reals.

  A two-dimensional contraction [M, K] · [K, N] read at (r, c) is the sum over k of l (r, k) · r (k, c), whether it is
  the kernel's matrix product into a zero accumulator or the host's dot_general: both are defined as the same sum over
  the contraction's positions, and a contraction over one axis of extent K is a sum over Fin K.  A bias [N] laid along
  the rows reads at (r, c) the bias at c, in the kernel's spelling (a unit axis added, then broadcast) and in the host's
  (two broadcasts).  A scalar constant broadcast to an array reads that constant everywhere.
-/
import proofs.«171973_j46256797778370_1_alg».proof.Proof.Gen.KernelIdeal
import proofs.«171973_j46256797778370_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- A contraction over the one shared axis of [M, K] and [K, N], whose positions are the sole coordinate of the
    contraction index: the sum over the contraction's positions is the sum over k of l (i₀, k) · r (k, i₁). -/
theorem plain_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q (0 : Fin 2)).val = (i 0).val)
    (hl1 : ∀ (i : (⟨2, ![M, N]⟩ : Shape).Idx) (q : d.contr.Idx), (d.lhsIdx i q (1 : Fin 2)).val = (q ⟨0, by omega⟩).val)
    (hr0 : ∀ (i : (⟨2, ![M, N]⟩ : Shape).Idx) (q : d.contr.Idx), (d.rhsIdx i q (0 : Fin 2)).val = (q ⟨0, by omega⟩).val)
    (hr1 : ∀ (i : (⟨2, ![M, N]⟩ : Shape).Idx) (q : d.contr.Idx), (d.rhsIdx i q (1 : Fin 2)).val = (i 1).val)
    (l : (⟨2, ![M, K]⟩ : Shape).Idx → EReal) (r : (⟨2, ![K, N]⟩ : Shape).Idx → EReal) (i : (⟨2, ![M, N]⟩ : Shape).Idx) :
    ∑ q : d.contr.Idx, l (d.lhsIdx i q) * r (d.rhsIdx i q)
      = ∑ k : Fin K, l (ix2 (n0 := M) (n1 := K) (i 0) k) * r (ix2 (n0 := K) (n1 := N) k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (n0 := M) (n1 := K) (i 0) k := funext fun a => Fin.ext (by
    match a with
    | ⟨0, _⟩ => exact hl0 _ _
    | ⟨1, _⟩ => exact (hl1 _ _).trans hk)
  have er : d.rhsIdx i ((contrEquiv1 d K hr hs).symm k) = ix2 (n0 := K) (n1 := N) k (i 1) := funext fun a => Fin.ext (by
    match a with
    | ⟨0, _⟩ => exact (hr0 _ _).trans hk
    | ⟨1, _⟩ => exact hr1 _ _)
  rw [el, er]

/-! ## The dimension records in use -/

theorem sum_block_in (l : Cert.KernelIdeal.S5000x64.Idx → EReal) (r : Cert.KernelIdeal.S64x128.Idx → EReal) (i : (⟨2, ![5000, 128]⟩ : Shape).Idx) :
    ∑ q : Cert.KernelIdeal.dot_S5000x64_S64x128_S5000x128_1_0_0_1_n_n.contr.Idx, l (Cert.KernelIdeal.dot_S5000x64_S64x128_S5000x128_1_0_0_1_n_n.lhsIdx i q) * r (Cert.KernelIdeal.dot_S5000x64_S64x128_S5000x128_1_0_0_1_n_n.rhsIdx i q)
      = ∑ k : Fin 64, l (ix2 (i 0) k) * r (ix2 k (i 1)) :=
  plain_sum Cert.KernelIdeal.dot_S5000x64_S64x128_S5000x128_1_0_0_1_n_n rfl rfl
    (fun i q => by
      unfold DotDims.lhsIdx
      rw [dif_neg (show ¬(0 : Fin Cert.KernelIdeal.S5000x64.rank) ∈ Cert.KernelIdeal.dot_S5000x64_S64x128_S5000x128_1_0_0_1_n_n.lhsBatch by decide),
        dif_pos (show (0 : Fin Cert.KernelIdeal.S5000x64.rank) ∈ Cert.KernelIdeal.dot_S5000x64_S64x128_S5000x128_1_0_0_1_n_n.lhsNonContracting by decide)]
      rfl)
    (fun i q => Cert.KernelIdeal.dot_S5000x64_S64x128_S5000x128_1_0_0_1_n_n.lhsIdx_val_of_single rfl i q)
    (fun i q => Cert.KernelIdeal.dot_S5000x64_S64x128_S5000x128_1_0_0_1_n_n.rhsIdx_val_of_single rfl i q)
    (fun i q => by
      unfold DotDims.rhsIdx
      rw [dif_neg (show ¬(1 : Fin Cert.KernelIdeal.S64x128.rank) ∈ Cert.KernelIdeal.dot_S5000x64_S64x128_S5000x128_1_0_0_1_n_n.rhsBatch by decide),
        dif_pos (show (1 : Fin Cert.KernelIdeal.S64x128.rank) ∈ Cert.KernelIdeal.dot_S5000x64_S64x128_S5000x128_1_0_0_1_n_n.rhsNonContracting by decide)]
      rfl)
    l r i

theorem sum_block_hid (l : Cert.KernelIdeal.S5000x128.Idx → EReal) (r : Cert.KernelIdeal.S128x128.Idx → EReal) (i : (⟨2, ![5000, 128]⟩ : Shape).Idx) :
    ∑ q : Cert.KernelIdeal.dot_S5000x128_S128x128_S5000x128_1_0_0_1_n_n.contr.Idx, l (Cert.KernelIdeal.dot_S5000x128_S128x128_S5000x128_1_0_0_1_n_n.lhsIdx i q) * r (Cert.KernelIdeal.dot_S5000x128_S128x128_S5000x128_1_0_0_1_n_n.rhsIdx i q)
      = ∑ k : Fin 128, l (ix2 (i 0) k) * r (ix2 k (i 1)) :=
  plain_sum Cert.KernelIdeal.dot_S5000x128_S128x128_S5000x128_1_0_0_1_n_n rfl rfl
    (fun i q => by
      unfold DotDims.lhsIdx
      rw [dif_neg (show ¬(0 : Fin Cert.KernelIdeal.S5000x128.rank) ∈ Cert.KernelIdeal.dot_S5000x128_S128x128_S5000x128_1_0_0_1_n_n.lhsBatch by decide),
        dif_pos (show (0 : Fin Cert.KernelIdeal.S5000x128.rank) ∈ Cert.KernelIdeal.dot_S5000x128_S128x128_S5000x128_1_0_0_1_n_n.lhsNonContracting by decide)]
      rfl)
    (fun i q => Cert.KernelIdeal.dot_S5000x128_S128x128_S5000x128_1_0_0_1_n_n.lhsIdx_val_of_single rfl i q)
    (fun i q => Cert.KernelIdeal.dot_S5000x128_S128x128_S5000x128_1_0_0_1_n_n.rhsIdx_val_of_single rfl i q)
    (fun i q => by
      unfold DotDims.rhsIdx
      rw [dif_neg (show ¬(1 : Fin Cert.KernelIdeal.S128x128.rank) ∈ Cert.KernelIdeal.dot_S5000x128_S128x128_S5000x128_1_0_0_1_n_n.rhsBatch by decide),
        dif_pos (show (1 : Fin Cert.KernelIdeal.S128x128.rank) ∈ Cert.KernelIdeal.dot_S5000x128_S128x128_S5000x128_1_0_0_1_n_n.rhsNonContracting by decide)]
      rfl)
    l r i

theorem sum_species_in (l : Cert.ReferenceIdeal.S5000x64.Idx → EReal) (r : Cert.ReferenceIdeal.S64x128.Idx → EReal) (i : (⟨2, ![5000, 128]⟩ : Shape).Idx) :
    ∑ q : Cert.ReferenceIdeal.dot_S5000x64_S64x128_S5000x128_1_0_0_1_n_n.contr.Idx, l (Cert.ReferenceIdeal.dot_S5000x64_S64x128_S5000x128_1_0_0_1_n_n.lhsIdx i q) * r (Cert.ReferenceIdeal.dot_S5000x64_S64x128_S5000x128_1_0_0_1_n_n.rhsIdx i q)
      = ∑ k : Fin 64, l (ix2 (i 0) k) * r (ix2 k (i 1)) :=
  plain_sum Cert.ReferenceIdeal.dot_S5000x64_S64x128_S5000x128_1_0_0_1_n_n rfl rfl
    (fun i q => by
      unfold DotDims.lhsIdx
      rw [dif_neg (show ¬(0 : Fin Cert.ReferenceIdeal.S5000x64.rank) ∈ Cert.ReferenceIdeal.dot_S5000x64_S64x128_S5000x128_1_0_0_1_n_n.lhsBatch by decide),
        dif_pos (show (0 : Fin Cert.ReferenceIdeal.S5000x64.rank) ∈ Cert.ReferenceIdeal.dot_S5000x64_S64x128_S5000x128_1_0_0_1_n_n.lhsNonContracting by decide)]
      rfl)
    (fun i q => Cert.ReferenceIdeal.dot_S5000x64_S64x128_S5000x128_1_0_0_1_n_n.lhsIdx_val_of_single rfl i q)
    (fun i q => Cert.ReferenceIdeal.dot_S5000x64_S64x128_S5000x128_1_0_0_1_n_n.rhsIdx_val_of_single rfl i q)
    (fun i q => by
      unfold DotDims.rhsIdx
      rw [dif_neg (show ¬(1 : Fin Cert.ReferenceIdeal.S64x128.rank) ∈ Cert.ReferenceIdeal.dot_S5000x64_S64x128_S5000x128_1_0_0_1_n_n.rhsBatch by decide),
        dif_pos (show (1 : Fin Cert.ReferenceIdeal.S64x128.rank) ∈ Cert.ReferenceIdeal.dot_S5000x64_S64x128_S5000x128_1_0_0_1_n_n.rhsNonContracting by decide)]
      rfl)
    l r i

theorem sum_species_hid (l : Cert.ReferenceIdeal.S5000x128.Idx → EReal) (r : Cert.ReferenceIdeal.S128x128.Idx → EReal) (i : (⟨2, ![5000, 128]⟩ : Shape).Idx) :
    ∑ q : Cert.ReferenceIdeal.dot_S5000x128_S128x128_S5000x128_1_0_0_1_n_n.contr.Idx, l (Cert.ReferenceIdeal.dot_S5000x128_S128x128_S5000x128_1_0_0_1_n_n.lhsIdx i q) * r (Cert.ReferenceIdeal.dot_S5000x128_S128x128_S5000x128_1_0_0_1_n_n.rhsIdx i q)
      = ∑ k : Fin 128, l (ix2 (i 0) k) * r (ix2 k (i 1)) :=
  plain_sum Cert.ReferenceIdeal.dot_S5000x128_S128x128_S5000x128_1_0_0_1_n_n rfl rfl
    (fun i q => by
      unfold DotDims.lhsIdx
      rw [dif_neg (show ¬(0 : Fin Cert.ReferenceIdeal.S5000x128.rank) ∈ Cert.ReferenceIdeal.dot_S5000x128_S128x128_S5000x128_1_0_0_1_n_n.lhsBatch by decide),
        dif_pos (show (0 : Fin Cert.ReferenceIdeal.S5000x128.rank) ∈ Cert.ReferenceIdeal.dot_S5000x128_S128x128_S5000x128_1_0_0_1_n_n.lhsNonContracting by decide)]
      rfl)
    (fun i q => Cert.ReferenceIdeal.dot_S5000x128_S128x128_S5000x128_1_0_0_1_n_n.lhsIdx_val_of_single rfl i q)
    (fun i q => Cert.ReferenceIdeal.dot_S5000x128_S128x128_S5000x128_1_0_0_1_n_n.rhsIdx_val_of_single rfl i q)
    (fun i q => by
      unfold DotDims.rhsIdx
      rw [dif_neg (show ¬(1 : Fin Cert.ReferenceIdeal.S128x128.rank) ∈ Cert.ReferenceIdeal.dot_S5000x128_S128x128_S5000x128_1_0_0_1_n_n.rhsBatch by decide),
        dif_pos (show (1 : Fin Cert.ReferenceIdeal.S128x128.rank) ∈ Cert.ReferenceIdeal.dot_S5000x128_S128x128_S5000x128_1_0_0_1_n_n.rhsNonContracting by decide)]
      rfl)
    l r i

theorem sum_gene_in (l : Cert.ReferenceIdeal.S200000x64.Idx → EReal) (r : Cert.ReferenceIdeal.S64x128.Idx → EReal) (i : (⟨2, ![200000, 128]⟩ : Shape).Idx) :
    ∑ q : Cert.ReferenceIdeal.dot_S200000x64_S64x128_S200000x128_1_0_0_1_n_n.contr.Idx, l (Cert.ReferenceIdeal.dot_S200000x64_S64x128_S200000x128_1_0_0_1_n_n.lhsIdx i q) * r (Cert.ReferenceIdeal.dot_S200000x64_S64x128_S200000x128_1_0_0_1_n_n.rhsIdx i q)
      = ∑ k : Fin 64, l (ix2 (i 0) k) * r (ix2 k (i 1)) :=
  plain_sum Cert.ReferenceIdeal.dot_S200000x64_S64x128_S200000x128_1_0_0_1_n_n rfl rfl
    (fun i q => by
      unfold DotDims.lhsIdx
      rw [dif_neg (show ¬(0 : Fin Cert.ReferenceIdeal.S200000x64.rank) ∈ Cert.ReferenceIdeal.dot_S200000x64_S64x128_S200000x128_1_0_0_1_n_n.lhsBatch by decide),
        dif_pos (show (0 : Fin Cert.ReferenceIdeal.S200000x64.rank) ∈ Cert.ReferenceIdeal.dot_S200000x64_S64x128_S200000x128_1_0_0_1_n_n.lhsNonContracting by decide)]
      rfl)
    (fun i q => Cert.ReferenceIdeal.dot_S200000x64_S64x128_S200000x128_1_0_0_1_n_n.lhsIdx_val_of_single rfl i q)
    (fun i q => Cert.ReferenceIdeal.dot_S200000x64_S64x128_S200000x128_1_0_0_1_n_n.rhsIdx_val_of_single rfl i q)
    (fun i q => by
      unfold DotDims.rhsIdx
      rw [dif_neg (show ¬(1 : Fin Cert.ReferenceIdeal.S64x128.rank) ∈ Cert.ReferenceIdeal.dot_S200000x64_S64x128_S200000x128_1_0_0_1_n_n.rhsBatch by decide),
        dif_pos (show (1 : Fin Cert.ReferenceIdeal.S64x128.rank) ∈ Cert.ReferenceIdeal.dot_S200000x64_S64x128_S200000x128_1_0_0_1_n_n.rhsNonContracting by decide)]
      rfl)
    l r i

theorem sum_gene_hid (l : Cert.ReferenceIdeal.S200000x128.Idx → EReal) (r : Cert.ReferenceIdeal.S128x128.Idx → EReal) (i : (⟨2, ![200000, 128]⟩ : Shape).Idx) :
    ∑ q : Cert.ReferenceIdeal.dot_S200000x128_S128x128_S200000x128_1_0_0_1_n_n.contr.Idx, l (Cert.ReferenceIdeal.dot_S200000x128_S128x128_S200000x128_1_0_0_1_n_n.lhsIdx i q) * r (Cert.ReferenceIdeal.dot_S200000x128_S128x128_S200000x128_1_0_0_1_n_n.rhsIdx i q)
      = ∑ k : Fin 128, l (ix2 (i 0) k) * r (ix2 k (i 1)) :=
  plain_sum Cert.ReferenceIdeal.dot_S200000x128_S128x128_S200000x128_1_0_0_1_n_n rfl rfl
    (fun i q => by
      unfold DotDims.lhsIdx
      rw [dif_neg (show ¬(0 : Fin Cert.ReferenceIdeal.S200000x128.rank) ∈ Cert.ReferenceIdeal.dot_S200000x128_S128x128_S200000x128_1_0_0_1_n_n.lhsBatch by decide),
        dif_pos (show (0 : Fin Cert.ReferenceIdeal.S200000x128.rank) ∈ Cert.ReferenceIdeal.dot_S200000x128_S128x128_S200000x128_1_0_0_1_n_n.lhsNonContracting by decide)]
      rfl)
    (fun i q => Cert.ReferenceIdeal.dot_S200000x128_S128x128_S200000x128_1_0_0_1_n_n.lhsIdx_val_of_single rfl i q)
    (fun i q => Cert.ReferenceIdeal.dot_S200000x128_S128x128_S200000x128_1_0_0_1_n_n.rhsIdx_val_of_single rfl i q)
    (fun i q => by
      unfold DotDims.rhsIdx
      rw [dif_neg (show ¬(1 : Fin Cert.ReferenceIdeal.S128x128.rank) ∈ Cert.ReferenceIdeal.dot_S200000x128_S128x128_S200000x128_1_0_0_1_n_n.rhsBatch by decide),
        dif_pos (show (1 : Fin Cert.ReferenceIdeal.S128x128.rank) ∈ Cert.ReferenceIdeal.dot_S200000x128_S128x128_S200000x128_1_0_0_1_n_n.rhsNonContracting by decide)]
      rfl)
    l r i

end Cert.Sage

end
-- ==== Proof.Spec.lean ====
/-
  The layer functions of the message-passing network, written once, as whole-array functions.

  Each is spelt with the host's operations (dot_general, broadcasts, add, multiply, maximum), so that the reference
  program's stages are these functions by unfolding; each is then read at an index on the extended reals as the
  textbook formula: a projection is Σₖ x (r, k) · W (k, c) + b (c); one relation's transform is
  (Σₖ a (r, k) · Wl (k, c) + bl (c)) + Σₖ x (r, k) · Wr (k, c); the species update is the positive part of one
  transform, the gene update the positive part of half the sum of two transforms.
-/
import proofs.«171973_j46256797778370_1_alg».proof.Proof.Sums

noncomputable section

namespace Cert.Sage

open Idealize.ShloMosaic Idealize.ShloMosaic.ValueIdx
open Cert.ReferenceIdeal Cert.ReferenceIdeal.Facts₀

variable {F : FTy → Type} [FloatOps F]

/-- An array of the given shape and element type. -/
abbrev Arr (S : Shape) (e : EltTy) : Type := (⟨S, e⟩ : BufTy).Contents (Elt F)

/-! ## 5000 rows -/

/-- A bias laid along the rows of a [5000, 128] array. -/
def biasS (b : Arr (F := F) S128 .f32) : Arr (F := F) S5000x128 .f32 :=
  broadcastInDim S5000x128 ![0, 1] bcast_S1x128_S5000x128_0_1 (broadcastInDim S1x128 ![1] bcast_S128_S1x128_1 b)

/-- The input projection x · W + b. -/
def linS (x : Arr (F := F) S5000x64 .f32) (w : Arr (F := F) S64x128 .f32) (b : Arr (F := F) S128 .f32) : Arr (F := F) S5000x128 .f32 :=
  addf (Host.dotGeneral dot_S5000x64_S64x128_S5000x128_1_0_0_1_n_n none x w) (biasS b)

/-- One relation's transform (a · Wl + bl) + x · Wr of the aggregated neighbours a and the destination features x. -/
def sageS (a x : Arr (F := F) S5000x128 .f32) (wl : Arr (F := F) S128x128 .f32) (bl : Arr (F := F) S128 .f32) (wr : Arr (F := F) S128x128 .f32) : Arr (F := F) S5000x128 .f32 :=
  addf (addf (Host.dotGeneral dot_S5000x128_S128x128_S5000x128_1_0_0_1_n_n none a wl) (biasS bl)) (Host.dotGeneral dot_S5000x128_S128x128_S5000x128_1_0_0_1_n_n none x wr)

/-- The constant zero array the rectifier compares with. -/
def zeroS : Arr (F := F) S5000x128 .f32 := broadcastInDim S5000x128 ![] bcast_S_S5000x128 (constant S_ .f32 0x00000000#32)

theorem biasS_apply (b : Arr (F := Ideal) S128 .f32) (p : Fin 5000) (q : Fin 128) : biasS (F := Ideal) b (ix2 p q) = b (ix1 q) := by
  unfold biasS
  rw [broadcastInDim_apply ![0, 1] bcast_S1x128_S5000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply ![1] bcast_S128_S1x128_1 b (ix2 (0 : Fin 1) q) (ix1 q) (fun a => match a with
    | ⟨0, _⟩ => by show q.val = if (128 : Nat) = 1 then 0 else q.val; rw [if_neg (by decide)])

theorem zeroS_apply (i : S5000x128.Idx) : zeroS (F := Ideal) i = Ideal.ofBits .f32 0x00000000#32 := by
  unfold zeroS
  exact broadcastInDim_apply ![] bcast_S_S5000x128 (constant (F := Ideal) S_ .f32 0x00000000#32) i ix0 (fun a => a.elim0)

theorem linS_apply (x : Arr (F := Ideal) S5000x64 .f32) (w : Arr (F := Ideal) S64x128 .f32) (b : Arr (F := Ideal) S128 .f32) (p : Fin 5000) (q : Fin 128) :
    linS (F := Ideal) x w b (ix2 p q) = (∑ k : Fin 64, x (ix2 p k) * w (ix2 k q)) + b (ix1 q) := by
  show FloatOps.dotGeneral (F := Ideal) dot_S5000x64_S64x128_S5000x128_1_0_0_1_n_n none .single x w (ix2 p q) + biasS (F := Ideal) b (ix2 p q) = _
  rw [Ideal.dotGeneral_apply, sum_species_in, biasS_apply]

theorem sageS_apply (a x : Arr (F := Ideal) S5000x128 .f32) (wl : Arr (F := Ideal) S128x128 .f32) (bl : Arr (F := Ideal) S128 .f32) (wr : Arr (F := Ideal) S128x128 .f32) (p : Fin 5000) (q : Fin 128) :
    sageS (F := Ideal) a x wl bl wr (ix2 p q)
      = ((∑ k : Fin 128, a (ix2 p k) * wl (ix2 k q)) + bl (ix1 q)) + ∑ k : Fin 128, x (ix2 p k) * wr (ix2 k q) := by
  show (FloatOps.dotGeneral (F := Ideal) dot_S5000x128_S128x128_S5000x128_1_0_0_1_n_n none .single a wl (ix2 p q) + biasS (F := Ideal) bl (ix2 p q))
      + FloatOps.dotGeneral (F := Ideal) dot_S5000x128_S128x128_S5000x128_1_0_0_1_n_n none .single x wr (ix2 p q) = _
  rw [Ideal.dotGeneral_apply, Ideal.dotGeneral_apply, sum_species_hid, sum_species_hid, biasS_apply]

/-! ## 200000 rows -/

/-- A bias laid along the rows of a [200000, 128] array. -/
def biasG (b : Arr (F := F) S128 .f32) : Arr (F := F) S200000x128 .f32 :=
  broadcastInDim S200000x128 ![0, 1] bcast_S1x128_S200000x128_0_1 (broadcastInDim S1x128 ![1] bcast_S128_S1x128_1 b)

/-- The input projection x · W + b. -/
def linG (x : Arr (F := F) S200000x64 .f32) (w : Arr (F := F) S64x128 .f32) (b : Arr (F := F) S128 .f32) : Arr (F := F) S200000x128 .f32 :=
  addf (Host.dotGeneral dot_S200000x64_S64x128_S200000x128_1_0_0_1_n_n none x w) (biasG b)

/-- One relation's transform (a · Wl + bl) + x · Wr of the aggregated neighbours a and the destination features x. -/
def sageG (a x : Arr (F := F) S200000x128 .f32) (wl : Arr (F := F) S128x128 .f32) (bl : Arr (F := F) S128 .f32) (wr : Arr (F := F) S128x128 .f32) : Arr (F := F) S200000x128 .f32 :=
  addf (addf (Host.dotGeneral dot_S200000x128_S128x128_S200000x128_1_0_0_1_n_n none a wl) (biasG bl)) (Host.dotGeneral dot_S200000x128_S128x128_S200000x128_1_0_0_1_n_n none x wr)

/-- The constant zero array the rectifier compares with. -/
def zeroG : Arr (F := F) S200000x128 .f32 := broadcastInDim S200000x128 ![] bcast_S_S200000x128 (constant S_ .f32 0x00000000#32)

theorem biasG_apply (b : Arr (F := Ideal) S128 .f32) (p : Fin 200000) (q : Fin 128) : biasG (F := Ideal) b (ix2 p q) = b (ix1 q) := by
  unfold biasG
  rw [broadcastInDim_apply ![0, 1] bcast_S1x128_S200000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply ![1] bcast_S128_S1x128_1 b (ix2 (0 : Fin 1) q) (ix1 q) (fun a => match a with
    | ⟨0, _⟩ => by show q.val = if (128 : Nat) = 1 then 0 else q.val; rw [if_neg (by decide)])

theorem zeroG_apply (i : S200000x128.Idx) : zeroG (F := Ideal) i = Ideal.ofBits .f32 0x00000000#32 := by
  unfold zeroG
  exact broadcastInDim_apply ![] bcast_S_S200000x128 (constant (F := Ideal) S_ .f32 0x00000000#32) i ix0 (fun a => a.elim0)

theorem linG_apply (x : Arr (F := Ideal) S200000x64 .f32) (w : Arr (F := Ideal) S64x128 .f32) (b : Arr (F := Ideal) S128 .f32) (p : Fin 200000) (q : Fin 128) :
    linG (F := Ideal) x w b (ix2 p q) = (∑ k : Fin 64, x (ix2 p k) * w (ix2 k q)) + b (ix1 q) := by
  show FloatOps.dotGeneral (F := Ideal) dot_S200000x64_S64x128_S200000x128_1_0_0_1_n_n none .single x w (ix2 p q) + biasG (F := Ideal) b (ix2 p q) = _
  rw [Ideal.dotGeneral_apply, sum_gene_in, biasG_apply]

theorem sageG_apply (a x : Arr (F := Ideal) S200000x128 .f32) (wl : Arr (F := Ideal) S128x128 .f32) (bl : Arr (F := Ideal) S128 .f32) (wr : Arr (F := Ideal) S128x128 .f32) (p : Fin 200000) (q : Fin 128) :
    sageG (F := Ideal) a x wl bl wr (ix2 p q)
      = ((∑ k : Fin 128, a (ix2 p k) * wl (ix2 k q)) + bl (ix1 q)) + ∑ k : Fin 128, x (ix2 p k) * wr (ix2 k q) := by
  show (FloatOps.dotGeneral (F := Ideal) dot_S200000x128_S128x128_S200000x128_1_0_0_1_n_n none .single a wl (ix2 p q) + biasG (F := Ideal) bl (ix2 p q))
      + FloatOps.dotGeneral (F := Ideal) dot_S200000x128_S128x128_S200000x128_1_0_0_1_n_n none .single x wr (ix2 p q) = _
  rw [Ideal.dotGeneral_apply, Ideal.dotGeneral_apply, sum_gene_hid, sum_gene_hid, biasG_apply]

/-! ## The two updates -/

/-- The species update: the positive part of the one transform into species. -/
def updS (a x : Arr (F := F) S5000x128 .f32) (wl : Arr (F := F) S128x128 .f32) (bl : Arr (F := F) S128 .f32) (wr : Arr (F := F) S128x128 .f32) : Arr (F := F) S5000x128 .f32 :=
  maximumf (sageS a x wl bl wr) zeroS

/-- The constant one half the gene update scales by. -/
def halfG : Arr (F := F) S200000x128 .f32 := broadcastInDim S200000x128 ![] bcast_S_S200000x128 (constant S_ .f32 0x3F000000#32)

/-- The gene update: the positive part of half the sum of the two transforms into genes. -/
def updG (a1 a2 x : Arr (F := F) S200000x128 .f32) (wl1 : Arr (F := F) S128x128 .f32) (bl1 : Arr (F := F) S128 .f32) (wr1 : Arr (F := F) S128x128 .f32)
    (wl2 : Arr (F := F) S128x128 .f32) (bl2 : Arr (F := F) S128 .f32) (wr2 : Arr (F := F) S128x128 .f32) : Arr (F := F) S200000x128 .f32 :=
  maximumf (mulf (addf (sageG a1 x wl1 bl1 wr1) (sageG a2 x wl2 bl2 wr2)) halfG) zeroG

theorem halfG_apply (i : S200000x128.Idx) : halfG (F := Ideal) i = Ideal.ofBits .f32 0x3F000000#32 := by
  unfold halfG
  exact broadcastInDim_apply ![] bcast_S_S200000x128 (constant (F := Ideal) S_ .f32 0x3F000000#32) i ix0 (fun a => a.elim0)

theorem updS_apply (a x : Arr (F := Ideal) S5000x128 .f32) (wl : Arr (F := Ideal) S128x128 .f32) (bl : Arr (F := Ideal) S128 .f32) (wr : Arr (F := Ideal) S128x128 .f32) (i : S5000x128.Idx) :
    updS (F := Ideal) a x wl bl wr i = max (sageS (F := Ideal) a x wl bl wr i) (Ideal.ofBits .f32 0x00000000#32) := by
  show max (sageS (F := Ideal) a x wl bl wr i) (zeroS (F := Ideal) i) = _
  rw [zeroS_apply]

theorem updG_apply (a1 a2 x : Arr (F := Ideal) S200000x128 .f32) (wl1 : Arr (F := Ideal) S128x128 .f32) (bl1 : Arr (F := Ideal) S128 .f32) (wr1 : Arr (F := Ideal) S128x128 .f32)
    (wl2 : Arr (F := Ideal) S128x128 .f32) (bl2 : Arr (F := Ideal) S128 .f32) (wr2 : Arr (F := Ideal) S128x128 .f32) (i : S200000x128.Idx) :
    updG (F := Ideal) a1 a2 x wl1 bl1 wr1 wl2 bl2 wr2 i
      = max ((sageG (F := Ideal) a1 x wl1 bl1 wr1 i + sageG (F := Ideal) a2 x wl2 bl2 wr2 i) * Ideal.ofBits .f32 0x3F000000#32) (Ideal.ofBits .f32 0x00000000#32) := by
  show max ((sageG (F := Ideal) a1 x wl1 bl1 wr1 i + sageG (F := Ideal) a2 x wl2 bl2 wr2 i) * halfG (F := Ideal) i) (zeroG (F := Ideal) i) = _
  rw [halfG_apply, zeroG_apply]

end Cert.Sage

end
-- ==== Proof.Payload.lean ====
/-
  The kernel bodies' arithmetic read at an index, on the extended reals.

  Every body loads whole blocks, narrows them to bfloat16 (the identity on the extended reals), multiplies matrices into
  a zero accumulator, adds a bias row, and (in the update kernels) adds a second product, halves, and takes the
  positive part.  Read at (p, q) the projection body is Σₖ x (p, k) · W (k, q) + b (q); one relation's transform is
  (Σₖ a (p, k) · Wl (k, q) + bl (q)) + Σₖ x (p, k) · Wr (k, q).  The casts of an array to its own shape drop out.
-/
import proofs.«171973_j46256797778370_1_alg».proof.Proof.Gen.KernelIdeal.Skeleton
import proofs.«171973_j46256797778370_1_alg».proof.Proof.Sums

noncomputable section

namespace Cert.Sage

open Idealize.ShloMosaic Idealize.ShloMosaic.ValueIdx
open Cert.KernelIdeal Cert.KernelIdeal.Facts₀

/-- The bias row as the kernels lay it: a unit axis added in front, then one row broadcast over the block. -/
theorem bias_block (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The projection body's value at (p, q). -/
theorem lin_form (x : Vec Ideal S5000x64 .f32) (w : Vec Ideal S64x128 .f32) (b : Vec Ideal S128 .f32) (p : Fin 5000) (q : Fin 128) :
    addf (F := Ideal) (matmul dot_S5000x64_S64x128_S5000x128_1_0_0_1_n_n none (truncf .bf16 x bitsLt_bf16_f32) (truncf .bf16 w bitsLt_bf16_f32) (constant S5000x128 .f32 0x00000000#32))
        (broadcastTo S5000x128 (shapeCast S1x128 b shapeCasts_S128_S1x128) broadcasts_S1x128_S5000x128) (ix2 p q)
      = (∑ k : Fin 64, x (ix2 p k) * w (ix2 k q)) + b (ix1 q) := by
  show FloatOps.matmul (F := Ideal) dot_S5000x64_S64x128_S5000x128_1_0_0_1_n_n none (truncf .bf16 x bitsLt_bf16_f32) (truncf .bf16 w bitsLt_bf16_f32) (constant S5000x128 .f32 0x00000000#32) (ix2 p q)
      + broadcastTo S5000x128 (shapeCast S1x128 b shapeCasts_S128_S1x128) broadcasts_S1x128_S5000x128 (ix2 p q) = _
  rw [Ideal.matmul_constant_zero_apply, sum_block_in, bias_block]
  rfl

theorem k0_pay1_apply (x : Vec Ideal S5000x64 .f32) (w : Vec Ideal S64x128 .f32) (b : Vec Ideal S128 .f32) (p : Fin 5000) (q : Fin 128) :
    Gen.k0_pay1 (F := Ideal) x w b (ix2 p q) = (∑ k : Fin 64, x (ix2 p k) * w (ix2 k q)) + b (ix1 q) := lin_form x w b p q

theorem k1_pay1_apply (x : Vec Ideal S5000x64 .f32) (w : Vec Ideal S64x128 .f32) (b : Vec Ideal S128 .f32) (p : Fin 5000) (q : Fin 128) :
    Gen.k1_pay1 (F := Ideal) x w b (ix2 p q) = (∑ k : Fin 64, x (ix2 p k) * w (ix2 k q)) + b (ix1 q) := lin_form x w b p q

/-- One relation's transform as the update bodies compute it, at (p, q). -/
theorem sage_form (a x : Vec Ideal S5000x128 .f32) (wl wr : Vec Ideal S128x128 .f32) (bl : Vec Ideal S128 .f32) (p : Fin 5000) (q : Fin 128) :
    addf (F := Ideal)
        (addf (matmul dot_S5000x128_S128x128_S5000x128_1_0_0_1_n_n none
            (truncf .bf16 (shapeCast S5000x128 a shapeCasts_S5000x128_S5000x128) bitsLt_bf16_f32)
            (truncf .bf16 (shapeCast S128x128 wl shapeCasts_S128x128_S128x128) bitsLt_bf16_f32) (constant S5000x128 .f32 0x00000000#32))
          (broadcastTo S5000x128 (shapeCast S1x128 (shapeCast S128 bl shapeCasts_S128_S128) shapeCasts_S128_S1x128) broadcasts_S1x128_S5000x128))
        (matmul dot_S5000x128_S128x128_S5000x128_1_0_0_1_n_n none
            (truncf .bf16 (shapeCast S5000x128 x shapeCasts_S5000x128_S5000x128) bitsLt_bf16_f32)
            (truncf .bf16 (shapeCast S128x128 wr shapeCasts_S128x128_S128x128) bitsLt_bf16_f32) (constant S5000x128 .f32 0x00000000#32)) (ix2 p q)
      = ((∑ k : Fin 128, a (ix2 p k) * wl (ix2 k q)) + bl (ix1 q)) + ∑ k : Fin 128, x (ix2 p k) * wr (ix2 k q) := by
  rw [shapeCast_self a, shapeCast_self x, shapeCast_self wl, shapeCast_self wr, shapeCast_self bl]
  show (FloatOps.matmul (F := Ideal) dot_S5000x128_S128x128_S5000x128_1_0_0_1_n_n none (truncf .bf16 a bitsLt_bf16_f32) (truncf .bf16 wl bitsLt_bf16_f32) (constant S5000x128 .f32 0x00000000#32) (ix2 p q)
        + broadcastTo S5000x128 (shapeCast S1x128 bl shapeCasts_S128_S1x128) broadcasts_S1x128_S5000x128 (ix2 p q))
      + FloatOps.matmul (F := Ideal) dot_S5000x128_S128x128_S5000x128_1_0_0_1_n_n none (truncf .bf16 x bitsLt_bf16_f32) (truncf .bf16 wr bitsLt_bf16_f32) (constant S5000x128 .f32 0x00000000#32) (ix2 p q) = _
  rw [Ideal.matmul_constant_zero_apply, Ideal.matmul_constant_zero_apply, sum_block_hid, sum_block_hid, bias_block]
  rfl

/-- The species update body at (p, q): the positive part of one transform. -/
theorem k3_pay1_apply (a x : Vec Ideal S5000x128 .f32) (wl wr : Vec Ideal S128x128 .f32) (bl : Vec Ideal S128 .f32) (p : Fin 5000) (q : Fin 128) :
    Gen.k3_pay1 (F := Ideal) a x wl wr bl (ix2 p q)
      = max (((∑ k : Fin 128, a (ix2 p k) * wl (ix2 k q)) + bl (ix1 q)) + ∑ k : Fin 128, x (ix2 p k) * wr (ix2 k q)) (Ideal.ofBits .f32 0x00000000#32) :=
  congrArg (max · (Ideal.ofBits .f32 0x00000000#32)) (sage_form a x wl wr bl p q)

theorem k5_pay1_apply (a x : Vec Ideal S5000x128 .f32) (wl wr : Vec Ideal S128x128 .f32) (bl : Vec Ideal S128 .f32) (p : Fin 5000) (q : Fin 128) :
    Gen.k5_pay1 (F := Ideal) a x wl wr bl (ix2 p q)
      = max (((∑ k : Fin 128, a (ix2 p k) * wl (ix2 k q)) + bl (ix1 q)) + ∑ k : Fin 128, x (ix2 p k) * wr (ix2 k q)) (Ideal.ofBits .f32 0x00000000#32) :=
  congrArg (max · (Ideal.ofBits .f32 0x00000000#32)) (sage_form a x wl wr bl p q)

/-- The gene update body at (p, q): the positive part of half the sum of two transforms of the same destination block. -/
theorem k2_apply (a1 a2 x : Vec Ideal S5000x128 .f32) (wl1 wr1 wl2 wr2 : Vec Ideal S128x128 .f32) (bl1 bl2 : Vec Ideal S128 .f32) (p : Fin 5000) (q : Fin 128) :
    Gen.k2_pay1 (F := Ideal) (Gen.k2_pay2 (F := Ideal) a1 a2 x wl1 wr1 wl2 wr2 bl1 bl2) (Scalar.ofBits .f32 0x3F000000#32) (ix2 p q)
      = max (((((∑ k : Fin 128, a1 (ix2 p k) * wl1 (ix2 k q)) + bl1 (ix1 q)) + ∑ k : Fin 128, x (ix2 p k) * wr1 (ix2 k q))
              + (((∑ k : Fin 128, a2 (ix2 p k) * wl2 (ix2 k q)) + bl2 (ix1 q)) + ∑ k : Fin 128, x (ix2 p k) * wr2 (ix2 k q)))
            * Ideal.ofBits .f32 0x3F000000#32) (Ideal.ofBits .f32 0x00000000#32) :=
  congrArg (max · (Ideal.ofBits .f32 0x00000000#32))
    (congrArg (· * Ideal.ofBits .f32 0x3F000000#32)
      (congrArg₂ (· + ·) (sage_form a1 x wl1 wr1 bl1 p q) (sage_form a2 x wl2 wr2 bl2 p q)))

theorem k4_apply (a1 a2 x : Vec Ideal S5000x128 .f32) (wl1 wr1 wl2 wr2 : Vec Ideal S128x128 .f32) (bl1 bl2 : Vec Ideal S128 .f32) (p : Fin 5000) (q : Fin 128) :
    Gen.k4_pay1 (F := Ideal) (Gen.k4_pay2 (F := Ideal) a1 a2 x wl1 wr1 wl2 wr2 bl1 bl2) (Scalar.ofBits .f32 0x3F000000#32) (ix2 p q)
      = max (((((∑ k : Fin 128, a1 (ix2 p k) * wl1 (ix2 k q)) + bl1 (ix1 q)) + ∑ k : Fin 128, x (ix2 p k) * wr1 (ix2 k q))
              + (((∑ k : Fin 128, a2 (ix2 p k) * wl2 (ix2 k q)) + bl2 (ix1 q)) + ∑ k : Fin 128, x (ix2 p k) * wr2 (ix2 k q)))
            * Ideal.ofBits .f32 0x3F000000#32) (Ideal.ofBits .f32 0x00000000#32) :=
  congrArg (max · (Ideal.ofBits .f32 0x00000000#32))
    (congrArg (· * Ideal.ofBits .f32 0x3F000000#32)
      (congrArg₂ (· + ·) (sage_form a1 x wl1 wr1 bl1 p q) (sage_form a2 x wl2 wr2 bl2 p q)))

end Cert.Sage

end
-- ==== Proof.Launch0.lean ====
/-
  Launch 0: the input projection of the species embeddings, as one whole-array function.

  The launch walks 1 grid point; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- What point t writes back is block t of the layer function of the operand arrays as the launch finds them. -/
theorem flushed_eq (c : Dev nD) (t : Fin cfg0.N) :
    (dat0 V c).flushed 3 t = ((cfg0.win 3).blk t).view.read (Elt Ideal) (Cert.Sage.linS (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x64) hz2, View.ld_unit_zero (S := S64x128) hz2, View.ld_unit_zero (S := S128) hz1]
  obtain ⟨e0, e1, e2, e3, e4, e5, e6⟩ := idx t
  have hN : t.val < 1 := lt_of_lt_of_eq t.isLt (show cfg0.N = 1 from N_0)
  funext j
  obtain ⟨p, q, rfl⟩ : ∃ (p : Fin 5000) (q : Fin 128), j = ix2 p q := ⟨j 0, j 1, eq_ix2 j⟩
  have hp : p.val < 5000 := p.isLt
  have hrow : t.val * 5000 + p.val < 5000 := by omega
  refine (Cert.Sage.k0_pay1_apply (iblk0 V c 0 t) (iblk0 V c 1 t) (iblk0 V c 2 t) p q).trans ?_
  have hemb : ((cfg0.win 3).blk t).view.emb (ix2 p q) = ix2 (⟨t.val * 5000 + p.val, hrow⟩ : Fin 5000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show _ = Cert.Sage.linS (F := Ideal) (V c main_arg0) (V c main_arg2) (V c main_arg3) (((cfg0.win 3).blk t).view.emb (ix2 p q))
  rw [hemb, Cert.Sage.linS_apply]
  have h0 : ∀ k : Fin 64, iblk0 V c 0 t (ix2 p k) = V c main_arg0 (ix2 (⟨t.val * 5000 + p.val, hrow⟩ : Fin 5000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ y : S64x128.Idx, iblk0 V c 1 t y = V c main_arg2 y := fun y => by
    show V c main_arg2 (((cfg0.win 1).blk t).view.emb y) = _
    refine congrArg (V c main_arg2) (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  have h2 : ∀ y : S128.Idx, iblk0 V c 2 t y = V c main_arg3 y := fun y => by
    show V c main_arg3 (((cfg0.win 2).blk t).view.emb y) = _
    refine congrArg (V c main_arg3) (funext fun a => Fin.ext ?_)
    match a with
    | ⟨0, _⟩ => show win0_2.index t (0 : Fin 1) * 128 + 1 * (y 0).val = (y 0).val; omega
  exact congrArg₂ (· + ·) (Finset.sum_congr rfl fun k _ => congrArg₂ (· * ·) (h0 k) (h1 _)) (h2 _)

/-- An index of the output array is in point t's block iff each coordinate is in the block's range on its axis. -/
theorem mem_blk (t : Fin cfg0.N) (i : S5000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every index of the output array is in the block of the point numbered by its row divided by 5000. -/
theorem cover (i : S5000x128.Idx) : ∃ t : Fin cfg0.N, (cfg0.win 3).flush t = true ∧ i ∈ ((cfg0.win 3).blk t).view.set := by
  have hi0 : (i 0).val < 5000 := (i 0).isLt
  have hi1 : (i 1).val < 128 := (i 1).isLt
  have ht : (i 0).val / 5000 < cfg0.N := by rw [show cfg0.N = 1 from N_0]; omega
  refine ⟨⟨(i 0).val / 5000, ht⟩, flush0_3 _, ?_⟩
  rw [mem_blk]
  obtain ⟨e0, e1, e2, e3, e4, e5, e6⟩ := idx ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e6]
    omega

/-- The output array after the launch is the layer function of the operand arrays as the launch finds them. -/
theorem final (c : Dev nD) : (dat0 V c).arrAt 3 cfg0.N = Cert.Sage.linS (F := Ideal) (V c main_arg0) (V c main_arg2) (V c main_arg3) :=
  (dat0 V c).arrAt_eq_of_cover 3 _ (fun t _ => flushed_eq V c t) cover

end Cert.Sage.Launch0

end
-- ==== Proof.Launch1.lean ====
/-
  Launch 1: the input projection of the gene embeddings, as one whole-array function.

  The launch walks 40 grid points; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- What point t writes back is block t of the layer function of the operand arrays as the launch finds them. -/
theorem flushed_eq (c : Dev nD) (t : Fin cfg1.N) :
    (dat1 V c).flushed 3 t = ((cfg1.win 3).blk t).view.read (Elt Ideal) (Cert.Sage.linG (F := Ideal) (V c main_arg1) (V c main_arg4) (V c main_arg5)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64x128) hz2, View.ld_unit_zero (S := S128) hz1]
  obtain ⟨e0, e1, e2, e3, e4, e5, e6⟩ := idx t
  have hN : t.val < 40 := lt_of_lt_of_eq t.isLt (show cfg1.N = 40 from N_1)
  funext j
  obtain ⟨p, q, rfl⟩ : ∃ (p : Fin 5000) (q : Fin 128), j = ix2 p q := ⟨j 0, j 1, eq_ix2 j⟩
  have hp : p.val < 5000 := p.isLt
  have hrow : t.val * 5000 + p.val < 200000 := by omega
  refine (Cert.Sage.k1_pay1_apply (iblk1 V c 0 t) (iblk1 V c 1 t) (iblk1 V c 2 t) p q).trans ?_
  have hemb : ((cfg1.win 3).blk t).view.emb (ix2 p q) = ix2 (⟨t.val * 5000 + p.val, hrow⟩ : Fin 200000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show _ = Cert.Sage.linG (F := Ideal) (V c main_arg1) (V c main_arg4) (V c main_arg5) (((cfg1.win 3).blk t).view.emb (ix2 p q))
  rw [hemb, Cert.Sage.linG_apply]
  have h0 : ∀ k : Fin 64, iblk1 V c 0 t (ix2 p k) = V c main_arg1 (ix2 (⟨t.val * 5000 + p.val, hrow⟩ : Fin 200000) k) := fun k => by
    show V c main_arg1 (((cfg1.win 0).blk t).view.emb (ix2 p k)) = _
    refine congrArg (V c main_arg1) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ y : S64x128.Idx, iblk1 V c 1 t y = V c main_arg4 y := fun y => by
    show V c main_arg4 (((cfg1.win 1).blk t).view.emb y) = _
    refine congrArg (V c main_arg4) (funext fun a => Fin.ext ?_)
    match a with
    | ⟨0, _⟩ => show win1_1.index t (0 : Fin 2) * 64 + 1 * (y 0).val = (y 0).val; omega
    | ⟨1, _⟩ => show win1_1.index t (1 : Fin 2) * 128 + 1 * (y 1).val = (y 1).val; omega
  have h2 : ∀ y : S128.Idx, iblk1 V c 2 t y = V c main_arg5 y := fun y => by
    show V c main_arg5 (((cfg1.win 2).blk t).view.emb y) = _
    refine congrArg (V c main_arg5) (funext fun a => Fin.ext ?_)
    match a with
    | ⟨0, _⟩ => show win1_2.index t (0 : Fin 1) * 128 + 1 * (y 0).val = (y 0).val; omega
  exact congrArg₂ (· + ·) (Finset.sum_congr rfl fun k _ => congrArg₂ (· * ·) (h0 k) (h1 _)) (h2 _)

/-- An index of the output array is in point t's block iff each coordinate is in the block's range on its axis. -/
theorem mem_blk (t : Fin cfg1.N) (i : S200000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v1).slice (win1_3.rect t)).set ↔ _
  rw [View.set_slice_whole, Rect.mem_set_unit]
  exact Iff.rfl

/-- Every index of the output array is in the block of the point numbered by its row divided by 5000. -/
theorem cover (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  have ht : (i 0).val / 5000 < cfg1.N := by rw [show cfg1.N = 40 from N_1]; omega
  refine ⟨⟨(i 0).val / 5000, ht⟩, flush1_3 _, ?_⟩
  rw [mem_blk]
  obtain ⟨e0, e1, e2, e3, e4, e5, e6⟩ := idx ⟨(i 0).val / 5000, ht⟩
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e6]
    omega

/-- The output array after the launch is the layer function of the operand arrays as the launch finds them. -/
theorem final (c : Dev nD) : (dat1 V c).arrAt 3 cfg1.N = Cert.Sage.linG (F := Ideal) (V c main_arg1) (V c main_arg4) (V c main_arg5) :=
  (dat1 V c).arrAt_eq_of_cover 3 _ (fun t _ => flushed_eq V c t) cover

end Cert.Sage.Launch1

end
-- ==== Proof.Launch2.lean ====
/-
  Launch 2: the gene update of one layer, as one whole-array function.

  The launch walks 40 grid points; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 1) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- What point t writes back is block t of the layer function of the operand arrays as the launch finds them. -/
theorem flushed_eq (c : Dev nD) (t : Fin cfg2.N) :
    (dat2 V c).flushed 9 t = ((cfg2.win 9).blk t).view.read (Elt Ideal) (Cert.Sage.updG (F := Ideal) (V c main_v19) (V c main_v55) (V c main_v1) (V c main_v57) (V c main_v59) (V c main_v61) (V c main_v63) (V c main_v65) (V c main_v67)) := by
  show (cfg2.win 9).cut (grid2.coords t) ((dat2 V c).after 9 t) = _
  rw [after2_9]
  unfold out2_9
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14, e15, e16, e17⟩ := idx t
  have hN : t.val < 40 := lt_of_lt_of_eq t.isLt (show cfg2.N = 40 from N_2)
  funext j
  obtain ⟨p, q, rfl⟩ : ∃ (p : Fin 5000) (q : Fin 128), j = ix2 p q := ⟨j 0, j 1, eq_ix2 j⟩
  have hp : p.val < 5000 := p.isLt
  have hrow : t.val * 5000 + p.val < 200000 := by omega
  refine (Cert.Sage.k2_apply (iblk2 V c 0 t) (iblk2 V c 1 t) (iblk2 V c 2 t) (iblk2 V c 3 t) (iblk2 V c 5 t) (iblk2 V c 6 t) (iblk2 V c 8 t) (iblk2 V c 4 t) (iblk2 V c 7 t) p q).trans ?_
  have hemb : ((cfg2.win 9).blk t).view.emb (ix2 p q) = ix2 (⟨t.val * 5000 + p.val, hrow⟩ : Fin 200000) q := by
    funext a; apply Fin.ext
    match a with
    | ⟨0, _⟩ => show win2_9.index t (0 : Fin 2) * 5000 + 1 * p.val = t.val * 5000 + p.val; omega
    | ⟨1, _⟩ => show win2_9.index t (1 : Fin 2) * 128 + 1 * q.val = q.val; omega
  show _ = Cert.Sage.updG (F := Ideal) (V c main_v19) (V c main_v55) (V c main_v1) (V c main_v57) (V c main_v59) (V c main_v61) (V c main_v63) (V c main_v65) (V c main_v67) (((cfg2.win 9).blk t).view.emb (ix2 p q))
  rw [hemb, Cert.Sage.updG_apply, Cert.Sage.sageG_apply, Cert.Sage.sageG_apply]
  have h0 : ∀ k : Fin 128, iblk2 V c 0 t (ix2 p k) = V c main_v19 (ix2 (⟨t.val * 5000 + p.val, hrow⟩ : Fin 200000) k) := fun k => by
    show V c main_v19 (((cfg2.win 0).blk t).view.emb (ix2 p k)) = _
    refine congrArg (V c main_v19) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 p k) = V c main_v55 (ix2 (⟨t.val * 5000 + p.val, hrow⟩ : Fin 200000) k) := fun k => by
    show V c main_v55 (((cfg2.win 1).blk t).view.emb (ix2 p k)) = _
    refine congrArg (V c main_v55) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ∀ k : Fin 128, iblk2 V c 2 t (ix2 p k) = V c main_v1 (ix2 (⟨t.val * 5000 + p.val, hrow⟩ : Fin 200000) k) := fun k => by
    show V c main_v1 (((cfg2.win 2).blk t).view.emb (ix2 p k)) = _
    refine congrArg (V c main_v1) (funext fun a => Fin.ext ?_)
    match a with
    | ⟨0, _⟩ => show win2_2.index t (0 : Fin 2) * 5000 + 1 * p.val = t.val * 5000 + p.val; omega
    | ⟨1, _⟩ => show win2_2.index t (1 : Fin 2) * 128 + 1 * k.val = k.val; omega
  have h3 : ∀ y : S128x128.Idx, iblk2 V c 3 t y = V c main_v57 y := fun y => by
    show V c main_v57 (((cfg2.win 3).blk t).view.emb y) = _
    refine congrArg (V c main_v57) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have h4 : ∀ y : S128.Idx, iblk2 V c 4 t y = V c main_v59 y := fun y => by
    show V c main_v59 (((cfg2.win 4).blk t).view.emb y) = _
    refine congrArg (V c main_v59) (funext fun a => Fin.ext ?_)
    match a with
    | ⟨0, _⟩ => show win2_4.index t (0 : Fin 1) * 128 + 1 * (y 0).val = (y 0).val; omega
  have h5 : ∀ y : S128x128.Idx, iblk2 V c 5 t y = V c main_v61 y := fun y => by
    show V c main_v61 (((cfg2.win 5).blk t).view.emb y) = _
    refine congrArg (V c main_v61) (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  have h6 : ∀ y : S128x128.Idx, iblk2 V c 6 t y = V c main_v63 y := fun y => by
    show V c main_v63 (((cfg2.win 6).blk t).view.emb y) = _
    refine congrArg (V c main_v63) (funext fun a => Fin.ext ?_)
    match a with
    | ⟨0, _⟩ => show win2_6.index t (0 : Fin 2) * 128 + 1 * (y 0).val = (y 0).val; omega
    | ⟨1, _⟩ => show win2_6.index t (1 : Fin 2) * 128 + 1 * (y 1).val = (y 1).val; omega
  have h7 : ∀ y : S128.Idx, iblk2 V c 7 t y = V c main_v65 y := fun y => by
    show V c main_v65 (((cfg2.win 7).blk t).view.emb y) = _
    refine congrArg (V c main_v65) (funext fun a => Fin.ext ?_)
    match a with
    | ⟨0, _⟩ => show win2_7.index t (0 : Fin 1) * 128 + 1 * (y 0).val = (y 0).val; omega
  have h8 : ∀ y : S128x128.Idx, iblk2 V c 8 t y = V c main_v67 y := fun y => by
    show V c main_v67 (((cfg2.win 8).blk t).view.emb y) = _
    refine congrArg (V c main_v67) (funext fun a => Fin.ext ?_)
    match a with
    | ⟨0, _⟩ => show win2_8.index t (0 : Fin 2) * 128 + 1 * (y 0).val = (y 0).val; omega
    | ⟨1, _⟩ => show win2_8.index t (1 : Fin 2) * 128 + 1 * (y 1).val = (y 1).val; omega
  exact congrArg (max · (Ideal.ofBits .f32 0x00000000#32)) (congrArg (· * Ideal.ofBits .f32 0x3F000000#32) (congrArg₂ (· + ·) (congrArg₂ (· + ·) (congrArg₂ (· + ·) (Finset.sum_congr rfl fun k _ => congrArg₂ (· * ·) (h0 k) (h3 _)) (h4 _)) (Finset.sum_congr rfl fun k _ => congrArg₂ (· * ·) (h2 k) (h5 _))) (congrArg₂ (· + ·) (congrArg₂ (· + ·) (Finset.sum_congr rfl fun k _ => congrArg₂ (· * ·) (h1 k) (h6 _)) (h7 _)) (Finset.sum_congr rfl fun k _ => congrArg₂ (· * ·) (h2 k) (h8 _)))))

/-- An index of the output array is in point t's block iff each coordinate is in the block's range on its axis. -/
theorem mem_blk (t : Fin cfg2.N) (i : S200000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v68).slice (win2_9.rect t)).set ↔ _
  rw [View.set_slice_whole, Rect.mem_set_unit]
  exact Iff.rfl

/-- Every index of the output array is in the block of the point numbered by its row divided by 5000. -/
theorem cover (i : S200000x128.Idx) : ∃ t : Fin cfg2.N, (cfg2.win 9).flush t = true ∧ i ∈ ((cfg2.win 9).blk t).view.set := by
  have hi0 : (i 0).val < 200000 := (i 0).isLt
  have hi1 : (i 1).val < 128 := (i 1).isLt
  have ht : (i 0).val / 5000 < cfg2.N := by rw [show cfg2.N = 40 from N_2]; omega
  refine ⟨⟨(i 0).val / 5000, ht⟩, flush2_9 _, ?_⟩
  rw [mem_blk]
  obtain ⟨e0, e1, e2, e3, e4, e5, e6, e7, e8, e9, e10, e11, e12, e13, e14, e15, e16, e17⟩ := idx ⟨(i 0).val / 5000, ht⟩
  intro a
  match a with
  | ⟨0, _⟩ =>
    show win2_9.index ⟨(i 0).val / 5000, ht⟩ (0 : Fin 2) * 5000 ≤ (i 0).val ∧ (i 0).val < win2_9.index ⟨(i 0).val / 5000, ht⟩ (0 : Fin 2) * 5000 + 5000
    rw [e16]
    show (i 0).val / 5000 * 5000 ≤ (i 0).val ∧ (i 0).val < (i 0).val / 5000 * 5000 + 5000
    omega
  | ⟨1, _⟩ =>
    show win2_9.index ⟨(i 0).val / 5000, ht⟩ (1 : Fin 2) * 128 ≤ (i 1).val ∧ (i 1).val < win2_9.index ⟨(i 0).val / 5000, ht⟩ (1 : Fin 2) * 128 + 128
    rw [e17]
    omega

/-- The output array after the launch is the layer function of the operand arrays as the launch finds them. -/
theorem final (c : Dev nD) : (dat2 V c).arrAt 9 cfg2.N = Cert.Sage.updG (F := Ideal) (V c main_v19) (V c main_v55) (V c main_v1) (V c main_v57) (V c main_v59) (V c main_v61) (V c main_v63) (V c main_v65) (V c main_v67) :=
  (dat2 V c).arrAt_eq_of_cover 9 _ (fun t _ => flushed_eq V c t) cover

end Cert.Sage.Launch2

end
-- ==== Proof.Launch3.lean ====
/-
  Launch 3: the species update of one layer, as one whole-array function.

  The launch walks 1 grid point; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- What point t writes back is block t of the layer function of the operand arrays as the launch finds them. -/
theorem flushed_eq (c : Dev nD) (t : Fin cfg3.N) :
    (dat3 V c).flushed 5 t = ((cfg3.win 5).blk t).view.read (Elt Ideal) (Cert.Sage.updS (F := Ideal) (V c main_v37) (V c main_v0) (V c main_v70) (V c main_v72) (V c main_v74)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx t
  have hN : t.val < 1 := lt_of_lt_of_eq t.isLt (show cfg3.N = 1 from N_3)
  funext j
  obtain ⟨p, q, rfl⟩ : ∃ (p : Fin 5000) (q : Fin 128), j = ix2 p q := ⟨j 0, j 1, eq_ix2 j⟩
  have hp : p.val < 5000 := p.isLt
  have hrow : t.val * 5000 + p.val < 5000 := by omega
  refine (Cert.Sage.k3_pay1_apply (iblk3 V c 0 t) (iblk3 V c 1 t) (iblk3 V c 2 t) (iblk3 V c 4 t) (iblk3 V c 3 t) p q).trans ?_
  have hemb : ((cfg3.win 5).blk t).view.emb (ix2 p q) = ix2 (⟨t.val * 5000 + p.val, hrow⟩ : Fin 5000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  show _ = Cert.Sage.updS (F := Ideal) (V c main_v37) (V c main_v0) (V c main_v70) (V c main_v72) (V c main_v74) (((cfg3.win 5).blk t).view.emb (ix2 p q))
  rw [hemb, Cert.Sage.updS_apply, Cert.Sage.sageS_apply]
  have h0 : ∀ k : Fin 128, iblk3 V c 0 t (ix2 p k) = V c main_v37 (ix2 (⟨t.val * 5000 + p.val, hrow⟩ : Fin 5000) k) := fun k => by
    show V c main_v37 (((cfg3.win 0).blk t).view.emb (ix2 p k)) = _
    refine congrArg (V c main_v37) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  have h1 : ∀ k : Fin 128, iblk3 V c 1 t (ix2 p k) = V c main_v0 (ix2 (⟨t.val * 5000 + p.val, hrow⟩ : Fin 5000) k) := fun k => by
    show V c main_v0 (((cfg3.win 1).blk t).view.emb (ix2 p k)) = _
    refine congrArg (V c main_v0) (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  have h2 : ∀ y : S128x128.Idx, iblk3 V c 2 t y = V c main_v70 y := fun y => by
    show V c main_v70 (((cfg3.win 2).blk t).view.emb y) = _
    refine congrArg (V c main_v70) (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  have h3 : ∀ y : S128.Idx, iblk3 V c 3 t y = V c main_v72 y := fun y => by
    show V c main_v72 (((cfg3.win 3).blk t).view.emb y) = _
    refine congrArg (V c main_v72) (funext fun a => Fin.ext ?_)
    match a with
    | ⟨0, _⟩ => show win3_3.index t (0 : Fin 1) * 128 + 1 * (y 0).val = (y 0).val; omega
  have h4 : ∀ y : S128x128.Idx, iblk3 V c 4 t y = V c main_v74 y := fun y => by
    show V c main_v74 (((cfg3.win 4).blk t).view.emb y) = _
    refine congrArg (V c main_v74) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  exact congrArg (max · (Ideal.ofBits .f32 0x00000000#32)) (congrArg₂ (· + ·) (congrArg₂ (· + ·) (Finset.sum_congr rfl fun k _ => congrArg₂ (· * ·) (h0 k) (h2 _)) (h3 _)) (Finset.sum_congr rfl fun k _ => congrArg₂ (· * ·) (h1 k) (h4 _)))

/-- An index of the output array is in point t's block iff each coordinate is in the block's range on its axis. -/
theorem mem_blk (t : Fin cfg3.N) (i : S5000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v75).slice (win3_5.rect t)).set ↔ _
  rw [View.set_slice_whole, Rect.mem_set_unit]
  exact Iff.rfl

/-- Every index of the output array is in the block of the point numbered by its row divided by 5000. -/
theorem cover (i : S5000x128.Idx) : ∃ t : Fin cfg3.N, (cfg3.win 5).flush t = true ∧ i ∈ ((cfg3.win 5).blk t).view.set := by
  have hi0 : (i 0).val < 5000 := (i 0).isLt
  have hi1 : (i 1).val < 128 := (i 1).isLt
  have ht : (i 0).val / 5000 < cfg3.N := by rw [show cfg3.N = 1 from N_3]; omega
  refine ⟨⟨(i 0).val / 5000, ht⟩, flush3_5 _, ?_⟩
  rw [mem_blk]
  obtain ⟨e0, e1, e2, e3, e4, e5, e6, e7, e8, e9, e10⟩ := idx ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e9]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e10]
    omega

/-- The output array after the launch is the layer function of the operand arrays as the launch finds them. -/
theorem final (c : Dev nD) : (dat3 V c).arrAt 5 cfg3.N = Cert.Sage.updS (F := Ideal) (V c main_v37) (V c main_v0) (V c main_v70) (V c main_v72) (V c main_v74) :=
  (dat3 V c).arrAt_eq_of_cover 5 _ (fun t _ => flushed_eq V c t) cover

end Cert.Sage.Launch3

end
-- ==== Proof.Launch4.lean ====
/-
  Launch 4: the gene update of one layer, as one whole-array function.

  The launch walks 40 grid points; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 1) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 1) = 0
    ∧ win4_8.index t (0 : Fin 2) = 0
    ∧ win4_8.index t (1 : Fin 2) = 0
    ∧ win4_9.index t (0 : Fin 2) = t.val
    ∧ win4_9.index t (1 : Fin 2) = 0 :=
  (by decide +kernel : ∀ t : Fin grid4.N, _)

/-- What point t writes back is block t of the layer function of the operand arrays as the launch finds them. -/
theorem flushed_eq (c : Dev nD) (t : Fin cfg4.N) :
    (dat4 V c).flushed 9 t = ((cfg4.win 9).blk t).view.read (Elt Ideal) (Cert.Sage.updG (F := Ideal) (V c main_v93) (V c main_v129) (V c main_v68) (V c main_v131) (V c main_v133) (V c main_v135) (V c main_v137) (V c main_v139) (V c main_v141)) := by
  show (cfg4.win 9).cut (grid4.coords t) ((dat4 V c).after 9 t) = _
  rw [after4_9]
  unfold out4_9
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10, e11, e12, e13, e14, e15, e16, e17⟩ := idx t
  have hN : t.val < 40 := lt_of_lt_of_eq t.isLt (show cfg4.N = 40 from N_4)
  funext j
  obtain ⟨p, q, rfl⟩ : ∃ (p : Fin 5000) (q : Fin 128), j = ix2 p q := ⟨j 0, j 1, eq_ix2 j⟩
  have hp : p.val < 5000 := p.isLt
  have hrow : t.val * 5000 + p.val < 200000 := by omega
  refine (Cert.Sage.k4_apply (iblk4 V c 0 t) (iblk4 V c 1 t) (iblk4 V c 2 t) (iblk4 V c 3 t) (iblk4 V c 5 t) (iblk4 V c 6 t) (iblk4 V c 8 t) (iblk4 V c 4 t) (iblk4 V c 7 t) p q).trans ?_
  have hemb : ((cfg4.win 9).blk t).view.emb (ix2 p q) = ix2 (⟨t.val * 5000 + p.val, hrow⟩ : Fin 200000) q := by
    funext a; apply Fin.ext
    match a with
    | ⟨0, _⟩ => show win4_9.index t (0 : Fin 2) * 5000 + 1 * p.val = t.val * 5000 + p.val; omega
    | ⟨1, _⟩ => show win4_9.index t (1 : Fin 2) * 128 + 1 * q.val = q.val; omega
  show _ = Cert.Sage.updG (F := Ideal) (V c main_v93) (V c main_v129) (V c main_v68) (V c main_v131) (V c main_v133) (V c main_v135) (V c main_v137) (V c main_v139) (V c main_v141) (((cfg4.win 9).blk t).view.emb (ix2 p q))
  rw [hemb, Cert.Sage.updG_apply, Cert.Sage.sageG_apply, Cert.Sage.sageG_apply]
  have h0 : ∀ k : Fin 128, iblk4 V c 0 t (ix2 p k) = V c main_v93 (ix2 (⟨t.val * 5000 + p.val, hrow⟩ : Fin 200000) k) := fun k => by
    show V c main_v93 (((cfg4.win 0).blk t).view.emb (ix2 p k)) = _
    refine congrArg (V c main_v93) (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, iblk4 V c 1 t (ix2 p k) = V c main_v129 (ix2 (⟨t.val * 5000 + p.val, hrow⟩ : Fin 200000) k) := fun k => by
    show V c main_v129 (((cfg4.win 1).blk t).view.emb (ix2 p k)) = _
    refine congrArg (V c main_v129) (funext fun a => Fin.ext ?_)
    match a with
    | ⟨0, _⟩ => show win4_1.index t (0 : Fin 2) * 5000 + 1 * p.val = t.val * 5000 + p.val; omega
    | ⟨1, _⟩ => show win4_1.index t (1 : Fin 2) * 128 + 1 * k.val = k.val; omega
  have h2 : ∀ k : Fin 128, iblk4 V c 2 t (ix2 p k) = V c main_v68 (ix2 (⟨t.val * 5000 + p.val, hrow⟩ : Fin 200000) k) := fun k => by
    show V c main_v68 (((cfg4.win 2).blk t).view.emb (ix2 p k)) = _
    refine congrArg (V c main_v68) (funext fun a => Fin.ext ?_)
    match a with
    | ⟨0, _⟩ => show win4_2.index t (0 : Fin 2) * 5000 + 1 * p.val = t.val * 5000 + p.val; omega
    | ⟨1, _⟩ => show win4_2.index t (1 : Fin 2) * 128 + 1 * k.val = k.val; omega
  have h3 : ∀ y : S128x128.Idx, iblk4 V c 3 t y = V c main_v131 y := fun y => by
    show V c main_v131 (((cfg4.win 3).blk t).view.emb y) = _
    refine congrArg (V c main_v131) (funext fun a => Fin.ext ?_)
    match a with
    | ⟨0, _⟩ => show win4_3.index t (0 : Fin 2) * 128 + 1 * (y 0).val = (y 0).val; omega
    | ⟨1, _⟩ => show win4_3.index t (1 : Fin 2) * 128 + 1 * (y 1).val = (y 1).val; omega
  have h4 : ∀ y : S128.Idx, iblk4 V c 4 t y = V c main_v133 y := fun y => by
    show V c main_v133 (((cfg4.win 4).blk t).view.emb y) = _
    refine congrArg (V c main_v133) (funext fun a => Fin.ext ?_)
    match a with
    | ⟨0, _⟩ => show win4_4.index t (0 : Fin 1) * 128 + 1 * (y 0).val = (y 0).val; omega
  have h5 : ∀ y : S128x128.Idx, iblk4 V c 5 t y = V c main_v135 y := fun y => by
    show V c main_v135 (((cfg4.win 5).blk t).view.emb y) = _
    refine congrArg (V c main_v135) (funext fun a => Fin.ext ?_)
    match a with
    | ⟨0, _⟩ => show win4_5.index t (0 : Fin 2) * 128 + 1 * (y 0).val = (y 0).val; omega
    | ⟨1, _⟩ => show win4_5.index t (1 : Fin 2) * 128 + 1 * (y 1).val = (y 1).val; omega
  have h6 : ∀ y : S128x128.Idx, iblk4 V c 6 t y = V c main_v137 y := fun y => by
    show V c main_v137 (((cfg4.win 6).blk t).view.emb y) = _
    refine congrArg (V c main_v137) (funext fun a => Fin.ext ?_)
    match a with
    | ⟨0, _⟩ => show win4_6.index t (0 : Fin 2) * 128 + 1 * (y 0).val = (y 0).val; omega
    | ⟨1, _⟩ => show win4_6.index t (1 : Fin 2) * 128 + 1 * (y 1).val = (y 1).val; omega
  have h7 : ∀ y : S128.Idx, iblk4 V c 7 t y = V c main_v139 y := fun y => by
    show V c main_v139 (((cfg4.win 7).blk t).view.emb y) = _
    refine congrArg (V c main_v139) (funext fun a => Fin.ext ?_)
    match a with
    | ⟨0, _⟩ => show win4_7.index t (0 : Fin 1) * 128 + 1 * (y 0).val = (y 0).val; omega
  have h8 : ∀ y : S128x128.Idx, iblk4 V c 8 t y = V c main_v141 y := fun y => by
    show V c main_v141 (((cfg4.win 8).blk t).view.emb y) = _
    refine congrArg (V c main_v141) (funext fun a => Fin.ext ?_)
    match a with
    | ⟨0, _⟩ => show win4_8.index t (0 : Fin 2) * 128 + 1 * (y 0).val = (y 0).val; omega
    | ⟨1, _⟩ => show win4_8.index t (1 : Fin 2) * 128 + 1 * (y 1).val = (y 1).val; omega
  exact congrArg (max · (Ideal.ofBits .f32 0x00000000#32)) (congrArg (· * Ideal.ofBits .f32 0x3F000000#32) (congrArg₂ (· + ·) (congrArg₂ (· + ·) (congrArg₂ (· + ·) (Finset.sum_congr rfl fun k _ => congrArg₂ (· * ·) (h0 k) (h3 _)) (h4 _)) (Finset.sum_congr rfl fun k _ => congrArg₂ (· * ·) (h2 k) (h5 _))) (congrArg₂ (· + ·) (congrArg₂ (· + ·) (Finset.sum_congr rfl fun k _ => congrArg₂ (· * ·) (h1 k) (h6 _)) (h7 _)) (Finset.sum_congr rfl fun k _ => congrArg₂ (· * ·) (h2 k) (h8 _)))))

/-- An index of the output array is in point t's block iff each coordinate is in the block's range on its axis. -/
theorem mem_blk (t : Fin cfg4.N) (i : S200000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v142).slice (win4_9.rect t)).set ↔ _
  rw [View.set_slice_whole, Rect.mem_set_unit]
  exact Iff.rfl

/-- Every index of the output array is in the block of the point numbered by its row divided by 5000. -/
theorem cover (i : S200000x128.Idx) : ∃ t : Fin cfg4.N, (cfg4.win 9).flush t = true ∧ i ∈ ((cfg4.win 9).blk t).view.set := by
  have hi0 : (i 0).val < 200000 := (i 0).isLt
  have hi1 : (i 1).val < 128 := (i 1).isLt
  have ht : (i 0).val / 5000 < cfg4.N := by rw [show cfg4.N = 40 from N_4]; omega
  refine ⟨⟨(i 0).val / 5000, ht⟩, flush4_9 _, ?_⟩
  rw [mem_blk]
  obtain ⟨e0, e1, e2, e3, e4, e5, e6, e7, e8, e9, e10, e11, e12, e13, e14, e15, e16, e17⟩ := idx ⟨(i 0).val / 5000, ht⟩
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e16]
    show (i 0).val / 5000 * 5000 ≤ (i 0).val ∧ (i 0).val < (i 0).val / 5000 * 5000 + 5000
    omega
  | ⟨1, _⟩ =>
    show win4_9.index ⟨(i 0).val / 5000, ht⟩ (1 : Fin 2) * 128 ≤ (i 1).val ∧ (i 1).val < win4_9.index ⟨(i 0).val / 5000, ht⟩ (1 : Fin 2) * 128 + 128
    rw [e17]
    omega

/-- The output array after the launch is the layer function of the operand arrays as the launch finds them. -/
theorem final (c : Dev nD) : (dat4 V c).arrAt 9 cfg4.N = Cert.Sage.updG (F := Ideal) (V c main_v93) (V c main_v129) (V c main_v68) (V c main_v131) (V c main_v133) (V c main_v135) (V c main_v137) (V c main_v139) (V c main_v141) :=
  (dat4 V c).arrAt_eq_of_cover 9 _ (fun t _ => flushed_eq V c t) cover

end Cert.Sage.Launch4

end
-- ==== Proof.Launch5.lean ====
/-
  Launch 5: the species update of one layer, as one whole-array function.

  The launch walks 1 grid point; point t stages rows 5000·t … 5000·t + 4999 of each row-blocked operand and of the
  output, and the whole of each weight and bias.  What point t writes back is therefore the restriction to those rows of
  ONE function of the operand arrays as the launch finds them — each output row depends only on the same row of the
  row-blocked operands —, the row blocks tile the output, and so the output array ends holding that function.
-/
import proofs.«171973_j46256797778370_1_alg».proof.Proof.Gen.KernelIdeal.Frame
import proofs.«171973_j46256797778370_1_alg».proof.Proof.Spec
import proofs.«171973_j46256797778370_1_alg».proof.Proof.Payload

set_option maxRecDepth 16384

noncomputable section

namespace Cert.Sage.Launch5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-blocked window's block row is the point's number, every other block
    index is zero. -/
theorem idx : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 1) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- What point t writes back is block t of the layer function of the operand arrays as the launch finds them. -/
theorem flushed_eq (c : Dev nD) (t : Fin cfg5.N) :
    (dat5 V c).flushed 5 t = ((cfg5.win 5).blk t).view.read (Elt Ideal) (Cert.Sage.updS (F := Ideal) (V c main_v111) (V c main_v75) (V c main_v144) (V c main_v146) (V c main_v148)) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx t
  have hN : t.val < 1 := lt_of_lt_of_eq t.isLt (show cfg5.N = 1 from N_5)
  funext j
  obtain ⟨p, q, rfl⟩ : ∃ (p : Fin 5000) (q : Fin 128), j = ix2 p q := ⟨j 0, j 1, eq_ix2 j⟩
  have hp : p.val < 5000 := p.isLt
  have hrow : t.val * 5000 + p.val < 5000 := by omega
  refine (Cert.Sage.k5_pay1_apply (iblk5 V c 0 t) (iblk5 V c 1 t) (iblk5 V c 2 t) (iblk5 V c 4 t) (iblk5 V c 3 t) p q).trans ?_
  have hemb : ((cfg5.win 5).blk t).view.emb (ix2 p q) = ix2 (⟨t.val * 5000 + p.val, hrow⟩ : Fin 5000) q := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * q.val = q.val; omega
  show _ = Cert.Sage.updS (F := Ideal) (V c main_v111) (V c main_v75) (V c main_v144) (V c main_v146) (V c main_v148) (((cfg5.win 5).blk t).view.emb (ix2 p q))
  rw [hemb, Cert.Sage.updS_apply, Cert.Sage.sageS_apply]
  have h0 : ∀ k : Fin 128, iblk5 V c 0 t (ix2 p k) = V c main_v111 (ix2 (⟨t.val * 5000 + p.val, hrow⟩ : Fin 5000) k) := fun k => by
    show V c main_v111 (((cfg5.win 0).blk t).view.emb (ix2 p k)) = _
    refine congrArg (V c main_v111) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * k.val = k.val; omega
  have h1 : ∀ k : Fin 128, iblk5 V c 1 t (ix2 p k) = V c main_v75 (ix2 (⟨t.val * 5000 + p.val, hrow⟩ : Fin 5000) k) := fun k => by
    show V c main_v75 (((cfg5.win 1).blk t).view.emb (ix2 p k)) = _
    refine congrArg (V c main_v75) (funext fun a => Fin.ext ?_)
    match a with
    | ⟨0, _⟩ => show win5_1.index t (0 : Fin 2) * 5000 + 1 * p.val = t.val * 5000 + p.val; omega
    | ⟨1, _⟩ => show win5_1.index t (1 : Fin 2) * 128 + 1 * k.val = k.val; omega
  have h2 : ∀ y : S128x128.Idx, iblk5 V c 2 t y = V c main_v144 y := fun y => by
    show V c main_v144 (((cfg5.win 2).blk t).view.emb y) = _
    refine congrArg (V c main_v144) (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  have h3 : ∀ y : S128.Idx, iblk5 V c 3 t y = V c main_v146 y := fun y => by
    show V c main_v146 (((cfg5.win 3).blk t).view.emb y) = _
    refine congrArg (V c main_v146) (funext fun a => Fin.ext ?_)
    match a with
    | ⟨0, _⟩ => show win5_3.index t (0 : Fin 1) * 128 + 1 * (y 0).val = (y 0).val; omega
  have h4 : ∀ y : S128x128.Idx, iblk5 V c 4 t y = V c main_v148 y := fun y => by
    show V c main_v148 (((cfg5.win 4).blk t).view.emb y) = _
    refine congrArg (V c main_v148) (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  exact congrArg (max · (Ideal.ofBits .f32 0x00000000#32)) (congrArg₂ (· + ·) (congrArg₂ (· + ·) (Finset.sum_congr rfl fun k _ => congrArg₂ (· * ·) (h0 k) (h2 _)) (h3 _)) (Finset.sum_congr rfl fun k _ => congrArg₂ (· * ·) (h1 k) (h4 _)))

/-- An index of the output array is in point t's block iff each coordinate is in the block's range on its axis. -/
theorem mem_blk (t : Fin cfg5.N) (i : S5000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v149).slice (win5_5.rect t)).set ↔ _
  rw [View.set_slice_whole, Rect.mem_set_unit]
  exact Iff.rfl

/-- Every index of the output array is in the block of the point numbered by its row divided by 5000. -/
theorem cover (i : S5000x128.Idx) : ∃ t : Fin cfg5.N, (cfg5.win 5).flush t = true ∧ i ∈ ((cfg5.win 5).blk t).view.set := by
  have hi0 : (i 0).val < 5000 := (i 0).isLt
  have hi1 : (i 1).val < 128 := (i 1).isLt
  have ht : (i 0).val / 5000 < cfg5.N := by rw [show cfg5.N = 1 from N_5]; omega
  refine ⟨⟨(i 0).val / 5000, ht⟩, flush5_5 _, ?_⟩
  rw [mem_blk]
  obtain ⟨e0, e1, e2, e3, e4, e5, e6, e7, e8, e9, e10⟩ := idx ⟨(i 0).val / 5000, ht⟩
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e9]
    show (i 0).val / 5000 * 5000 ≤ (i 0).val ∧ (i 0).val < (i 0).val / 5000 * 5000 + 5000
    omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e10]
    omega

/-- The output array after the launch is the layer function of the operand arrays as the launch finds them. -/
theorem final (c : Dev nD) : (dat5 V c).arrAt 5 cfg5.N = Cert.Sage.updS (F := Ideal) (V c main_v111) (V c main_v75) (V c main_v144) (V c main_v146) (V c main_v148) :=
  (dat5 V c).arrAt_eq_of_cover 5 _ (fun t _ => flushed_eq V c t) cover

end Cert.Sage.Launch5

end
-- ==== Proof.Host2.lean ====
/-
  The first layer's aggregation stretch of host operations, read from any contents at its entry.

  The stretch gathers source rows, scatter-adds them at their destinations, counts, and divides (the mean over incoming
  edges), and cuts the layer's weight matrices and bias rows out of the stacked parameters.  These are the reference
  program's own operations on the same operands: once the feature array read at the entry is a stage of the reference
  and the index and parameter arrays are the arguments, each result is the reference's corresponding stage, by
  unfolding.  A buffer no operation of the stretch writes keeps its contents.
-/
import proofs.«171973_j46256797778370_1_alg».proof.Proof.Gen.KernelIdeal.Launch
import proofs.«171973_j46256797778370_1_alg».proof.Proof.Gen.ReferenceIdeal.Read
import Idealize.ShloMosaic.Lib.StableHlo.Run

set_option maxRecDepth 16384
set_option maxHeartbeats 40000000

noncomputable section

namespace Cert.Sage.Host2

open Cert.KernelIdeal Cert.KernelIdeal.Gen
open Idealize.ShloMosaic Idealize.ShloMosaic.TcCoe Idealize.SL.Sem Idealize.ShloMosaic.StableHlo

/-- No operation of the stretch writes the buffer: each operation's one result buffer is another reference. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the stretch computes -/

theorem at_main_v19 (W : Valuation τ sig (Elt Ideal)) (x0 : (⟨Cert.ReferenceIdeal.S5000x64, .f32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x9 : (⟨Cert.ReferenceIdeal.S1000000, .i32⟩ : BufTy).Contents (Elt Ideal)) (x10 : (⟨Cert.ReferenceIdeal.S1000000, .i32⟩ : BufTy).Contents (Elt Ideal))
    (hl0 : W (Proc.devRef .tc main_v0) = Cert.ReferenceIdeal.Read.val_main_v3 (F := Ideal) x0 x2 x3)
    (ha9 : W (Proc.devRef .tc main_arg9) = x9)
    (ha10 : W (Proc.devRef .tc main_arg10) = x10) :
    StableHlo.after hostOps2 W (Proc.devRef .tc main_v19) = Cert.ReferenceIdeal.Read.val_main_v31 (F := Ideal) x0 x2 x3 x9 x10 := by
  after_results_simp
  rw [hl0, ha9, ha10]
  rfl

theorem at_main_v37 (W : Valuation τ sig (Elt Ideal)) (x1 : (⟨Cert.ReferenceIdeal.S200000x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x11 : (⟨Cert.ReferenceIdeal.S1000000, .i32⟩ : BufTy).Contents (Elt Ideal)) (x12 : (⟨Cert.ReferenceIdeal.S1000000, .i32⟩ : BufTy).Contents (Elt Ideal))
    (hl0 : W (Proc.devRef .tc main_v1) = Cert.ReferenceIdeal.Read.val_main_v7 (F := Ideal) x1 x4 x5)
    (ha11 : W (Proc.devRef .tc main_arg11) = x11)
    (ha12 : W (Proc.devRef .tc main_arg12) = x12) :
    StableHlo.after hostOps2 W (Proc.devRef .tc main_v37) = Cert.ReferenceIdeal.Read.val_main_v61 (F := Ideal) x1 x4 x5 x11 x12 := by
  after_results_simp
  rw [hl0, ha11, ha12]
  rfl

theorem at_main_v55 (W : Valuation τ sig (Elt Ideal)) (x1 : (⟨Cert.ReferenceIdeal.S200000x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x13 : (⟨Cert.ReferenceIdeal.S2000000, .i32⟩ : BufTy).Contents (Elt Ideal)) (x14 : (⟨Cert.ReferenceIdeal.S2000000, .i32⟩ : BufTy).Contents (Elt Ideal))
    (hl0 : W (Proc.devRef .tc main_v1) = Cert.ReferenceIdeal.Read.val_main_v7 (F := Ideal) x1 x4 x5)
    (ha13 : W (Proc.devRef .tc main_arg13) = x13)
    (ha14 : W (Proc.devRef .tc main_arg14) = x14) :
    StableHlo.after hostOps2 W (Proc.devRef .tc main_v55) = Cert.ReferenceIdeal.Read.val_main_v91 (F := Ideal) x1 x4 x5 x13 x14 := by
  after_results_simp
  rw [hl0, ha13, ha14]
  rfl

theorem at_main_v57 (W : Valuation τ sig (Elt Ideal)) (x6 : (⟨Cert.ReferenceIdeal.S2x3x128x128, .f32⟩ : BufTy).Contents (Elt Ideal))
    (ha6 : W (Proc.devRef .tc main_arg6) = x6) :
    StableHlo.after hostOps2 W (Proc.devRef .tc main_v57) = Cert.ReferenceIdeal.Read.val_main_v9 (F := Ideal) x6 := by
  after_results_simp
  rw [ha6]
  rfl

theorem at_main_v59 (W : Valuation τ sig (Elt Ideal)) (x7 : (⟨Cert.ReferenceIdeal.S2x3x128, .f32⟩ : BufTy).Contents (Elt Ideal))
    (ha7 : W (Proc.devRef .tc main_arg7) = x7) :
    StableHlo.after hostOps2 W (Proc.devRef .tc main_v59) = Cert.ReferenceIdeal.Read.val_main_v11 (F := Ideal) x7 := by
  after_results_simp
  rw [ha7]
  rfl

theorem at_main_v61 (W : Valuation τ sig (Elt Ideal)) (x8 : (⟨Cert.ReferenceIdeal.S2x3x128x128, .f32⟩ : BufTy).Contents (Elt Ideal))
    (ha8 : W (Proc.devRef .tc main_arg8) = x8) :
    StableHlo.after hostOps2 W (Proc.devRef .tc main_v61) = Cert.ReferenceIdeal.Read.val_main_v13 (F := Ideal) x8 := by
  after_results_simp
  rw [ha8]
  rfl

theorem at_main_v63 (W : Valuation τ sig (Elt Ideal)) (x6 : (⟨Cert.ReferenceIdeal.S2x3x128x128, .f32⟩ : BufTy).Contents (Elt Ideal))
    (ha6 : W (Proc.devRef .tc main_arg6) = x6) :
    StableHlo.after hostOps2 W (Proc.devRef .tc main_v63) = Cert.ReferenceIdeal.Read.val_main_v69 (F := Ideal) x6 := by
  after_results_simp
  rw [ha6]
  rfl

theorem at_main_v65 (W : Valuation τ sig (Elt Ideal)) (x7 : (⟨Cert.ReferenceIdeal.S2x3x128, .f32⟩ : BufTy).Contents (Elt Ideal))
    (ha7 : W (Proc.devRef .tc main_arg7) = x7) :
    StableHlo.after hostOps2 W (Proc.devRef .tc main_v65) = Cert.ReferenceIdeal.Read.val_main_v71 (F := Ideal) x7 := by
  after_results_simp
  rw [ha7]
  rfl

theorem at_main_v67 (W : Valuation τ sig (Elt Ideal)) (x8 : (⟨Cert.ReferenceIdeal.S2x3x128x128, .f32⟩ : BufTy).Contents (Elt Ideal))
    (ha8 : W (Proc.devRef .tc main_arg8) = x8) :
    StableHlo.after hostOps2 W (Proc.devRef .tc main_v67) = Cert.ReferenceIdeal.Read.val_main_v73 (F := Ideal) x8 := by
  after_results_simp
  rw [ha8]
  rfl

/-! ## What the stretch leaves alone -/

theorem keep_main_v0 (W : Valuation τ sig (Elt Ideal)) :
    StableHlo.after hostOps2 W (Proc.devRef .tc main_v0) = W (Proc.devRef .tc main_v0) := by host_keep hostOps2

theorem keep_main_v1 (W : Valuation τ sig (Elt Ideal)) :
    StableHlo.after hostOps2 W (Proc.devRef .tc main_v1) = W (Proc.devRef .tc main_v1) := by host_keep hostOps2

theorem keep_main_arg6 (W : Valuation τ sig (Elt Ideal)) :
    StableHlo.after hostOps2 W (Proc.devRef .tc main_arg6) = W (Proc.devRef .tc main_arg6) := by host_keep hostOps2

theorem keep_main_arg7 (W : Valuation τ sig (Elt Ideal)) :
    StableHlo.after hostOps2 W (Proc.devRef .tc main_arg7) = W (Proc.devRef .tc main_arg7) := by host_keep hostOps2

theorem keep_main_arg8 (W : Valuation τ sig (Elt Ideal)) :
    StableHlo.after hostOps2 W (Proc.devRef .tc main_arg8) = W (Proc.devRef .tc main_arg8) := by host_keep hostOps2

theorem keep_main_arg9 (W : Valuation τ sig (Elt Ideal)) :
    StableHlo.after hostOps2 W (Proc.devRef .tc main_arg9) = W (Proc.devRef .tc main_arg9) := by host_keep hostOps2

theorem keep_main_arg10 (W : Valuation τ sig (Elt Ideal)) :
    StableHlo.after hostOps2 W (Proc.devRef .tc main_arg10) = W (Proc.devRef .tc main_arg10) := by host_keep hostOps2

theorem keep_main_arg11 (W : Valuation τ sig (Elt Ideal)) :
    StableHlo.after hostOps2 W (Proc.devRef .tc main_arg11) = W (Proc.devRef .tc main_arg11) := by host_keep hostOps2

theorem keep_main_arg12 (W : Valuation τ sig (Elt Ideal)) :
    StableHlo.after hostOps2 W (Proc.devRef .tc main_arg12) = W (Proc.devRef .tc main_arg12) := by host_keep hostOps2

theorem keep_main_arg13 (W : Valuation τ sig (Elt Ideal)) :
    StableHlo.after hostOps2 W (Proc.devRef .tc main_arg13) = W (Proc.devRef .tc main_arg13) := by host_keep hostOps2

theorem keep_main_arg14 (W : Valuation τ sig (Elt Ideal)) :
    StableHlo.after hostOps2 W (Proc.devRef .tc main_arg14) = W (Proc.devRef .tc main_arg14) := by host_keep hostOps2

end Cert.Sage.Host2

end
-- ==== Proof.Host3.lean ====
/-
  The first layer's species weights stretch of host operations, read from any contents at its entry.

  The stretch gathers source rows, scatter-adds them at their destinations, counts, and divides (the mean over incoming
  edges), and cuts the layer's weight matrices and bias rows out of the stacked parameters.  These are the reference
  program's own operations on the same operands: once the feature array read at the entry is a stage of the reference
  and the index and parameter arrays are the arguments, each result is the reference's corresponding stage, by
  unfolding.  A buffer no operation of the stretch writes keeps its contents.
-/
import proofs.«171973_j46256797778370_1_alg».proof.Proof.Gen.KernelIdeal.Launch
import proofs.«171973_j46256797778370_1_alg».proof.Proof.Gen.ReferenceIdeal.Read
import Idealize.ShloMosaic.Lib.StableHlo.Run

set_option maxRecDepth 16384
set_option maxHeartbeats 40000000

noncomputable section

namespace Cert.Sage.Host3

open Cert.KernelIdeal Cert.KernelIdeal.Gen
open Idealize.ShloMosaic Idealize.ShloMosaic.TcCoe Idealize.SL.Sem Idealize.ShloMosaic.StableHlo

/-- No operation of the stretch writes the buffer: each operation's one result buffer is another reference. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the stretch computes -/

theorem at_main_v70 (W : Valuation τ sig (Elt Ideal)) (x6 : (⟨Cert.ReferenceIdeal.S2x3x128x128, .f32⟩ : BufTy).Contents (Elt Ideal))
    (ha6 : W (Proc.devRef .tc main_arg6) = x6) :
    StableHlo.after hostOps3 W (Proc.devRef .tc main_v70) = Cert.ReferenceIdeal.Read.val_main_v39 (F := Ideal) x6 := by
  after_results
  rw [ha6]
  rfl

theorem at_main_v72 (W : Valuation τ sig (Elt Ideal)) (x7 : (⟨Cert.ReferenceIdeal.S2x3x128, .f32⟩ : BufTy).Contents (Elt Ideal))
    (ha7 : W (Proc.devRef .tc main_arg7) = x7) :
    StableHlo.after hostOps3 W (Proc.devRef .tc main_v72) = Cert.ReferenceIdeal.Read.val_main_v41 (F := Ideal) x7 := by
  after_results
  rw [ha7]
  rfl

theorem at_main_v74 (W : Valuation τ sig (Elt Ideal)) (x8 : (⟨Cert.ReferenceIdeal.S2x3x128x128, .f32⟩ : BufTy).Contents (Elt Ideal))
    (ha8 : W (Proc.devRef .tc main_arg8) = x8) :
    StableHlo.after hostOps3 W (Proc.devRef .tc main_v74) = Cert.ReferenceIdeal.Read.val_main_v43 (F := Ideal) x8 := by
  after_results
  rw [ha8]
  rfl

/-! ## What the stretch leaves alone -/

theorem keep_main_v0 (W : Valuation τ sig (Elt Ideal)) :
    StableHlo.after hostOps3 W (Proc.devRef .tc main_v0) = W (Proc.devRef .tc main_v0) := by host_keep hostOps3

theorem keep_main_v37 (W : Valuation τ sig (Elt Ideal)) :
    StableHlo.after hostOps3 W (Proc.devRef .tc main_v37) = W (Proc.devRef .tc main_v37) := by host_keep hostOps3

theorem keep_main_v68 (W : Valuation τ sig (Elt Ideal)) :
    StableHlo.after hostOps3 W (Proc.devRef .tc main_v68) = W (Proc.devRef .tc main_v68) := by host_keep hostOps3

theorem keep_main_arg6 (W : Valuation τ sig (Elt Ideal)) :
    StableHlo.after hostOps3 W (Proc.devRef .tc main_arg6) = W (Proc.devRef .tc main_arg6) := by host_keep hostOps3

theorem keep_main_arg7 (W : Valuation τ sig (Elt Ideal)) :
    StableHlo.after hostOps3 W (Proc.devRef .tc main_arg7) = W (Proc.devRef .tc main_arg7) := by host_keep hostOps3

theorem keep_main_arg8 (W : Valuation τ sig (Elt Ideal)) :
    StableHlo.after hostOps3 W (Proc.devRef .tc main_arg8) = W (Proc.devRef .tc main_arg8) := by host_keep hostOps3

theorem keep_main_arg9 (W : Valuation τ sig (Elt Ideal)) :
    StableHlo.after hostOps3 W (Proc.devRef .tc main_arg9) = W (Proc.devRef .tc main_arg9) := by host_keep hostOps3

theorem keep_main_arg10 (W : Valuation τ sig (Elt Ideal)) :
    StableHlo.after hostOps3 W (Proc.devRef .tc main_arg10) = W (Proc.devRef .tc main_arg10) := by host_keep hostOps3

theorem keep_main_arg11 (W : Valuation τ sig (Elt Ideal)) :
    StableHlo.after hostOps3 W (Proc.devRef .tc main_arg11) = W (Proc.devRef .tc main_arg11) := by host_keep hostOps3

theorem keep_main_arg12 (W : Valuation τ sig (Elt Ideal)) :
    StableHlo.after hostOps3 W (Proc.devRef .tc main_arg12) = W (Proc.devRef .tc main_arg12) := by host_keep hostOps3

theorem keep_main_arg13 (W : Valuation τ sig (Elt Ideal)) :
    StableHlo.after hostOps3 W (Proc.devRef .tc main_arg13) = W (Proc.devRef .tc main_arg13) := by host_keep hostOps3

theorem keep_main_arg14 (W : Valuation τ sig (Elt Ideal)) :
    StableHlo.after hostOps3 W (Proc.devRef .tc main_arg14) = W (Proc.devRef .tc main_arg14) := by host_keep hostOps3

end Cert.Sage.Host3

end
-- ==== Proof.Host4.lean ====
/-
  The second layer's aggregation stretch of host operations, read from any contents at its entry.

  The stretch gathers source rows, scatter-adds them at their destinations, counts, and divides (the mean over incoming
  edges), and cuts the layer's weight matrices and bias rows out of the stacked parameters.  These are the reference
  program's own operations on the same operands: once the feature array read at the entry is a stage of the reference
  and the index and parameter arrays are the arguments, each result is the reference's corresponding stage, by
  unfolding.  A buffer no operation of the stretch writes keeps its contents.
-/
import proofs.«171973_j46256797778370_1_alg».proof.Proof.Gen.KernelIdeal.Launch
import proofs.«171973_j46256797778370_1_alg».proof.Proof.Gen.ReferenceIdeal.Read
import Idealize.ShloMosaic.Lib.StableHlo.Run

set_option maxRecDepth 16384
set_option maxHeartbeats 40000000

noncomputable section

namespace Cert.Sage.Host4

open Cert.KernelIdeal Cert.KernelIdeal.Gen
open Idealize.ShloMosaic Idealize.ShloMosaic.TcCoe Idealize.SL.Sem Idealize.ShloMosaic.StableHlo

/-- No operation of the stretch writes the buffer: each operation's one result buffer is another reference. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the stretch computes -/

theorem at_main_v93 (W : Valuation τ sig (Elt Ideal)) (x0 : (⟨Cert.ReferenceIdeal.S5000x64, .f32⟩ : BufTy).Contents (Elt Ideal)) (x1 : (⟨Cert.ReferenceIdeal.S200000x64, .f32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S2x3x128x128, .f32⟩ : BufTy).Contents (Elt Ideal)) (x7 : (⟨Cert.ReferenceIdeal.S2x3x128, .f32⟩ : BufTy).Contents (Elt Ideal)) (x8 : (⟨Cert.ReferenceIdeal.S2x3x128x128, .f32⟩ : BufTy).Contents (Elt Ideal)) (x9 : (⟨Cert.ReferenceIdeal.S1000000, .i32⟩ : BufTy).Contents (Elt Ideal)) (x10 : (⟨Cert.ReferenceIdeal.S1000000, .i32⟩ : BufTy).Contents (Elt Ideal)) (x11 : (⟨Cert.ReferenceIdeal.S1000000, .i32⟩ : BufTy).Contents (Elt Ideal)) (x12 : (⟨Cert.ReferenceIdeal.S1000000, .i32⟩ : BufTy).Contents (Elt Ideal))
    (hl0 : W (Proc.devRef .tc main_v75) = Cert.ReferenceIdeal.Read.val_main_v102 (F := Ideal) x0 x1 x2 x3 x4 x5 x6 x7 x8 x11 x12)
    (ha9 : W (Proc.devRef .tc main_arg9) = x9)
    (ha10 : W (Proc.devRef .tc main_arg10) = x10) :
    StableHlo.after hostOps4 W (Proc.devRef .tc main_v93) = Cert.ReferenceIdeal.Read.val_main_v126 (F := Ideal) x0 x1 x2 x3 x4 x5 x6 x7 x8 x9 x10 x11 x12 := by
  after_results_simp
  rw [hl0, ha9, ha10]
  rfl

theorem at_main_v111 (W : Valuation τ sig (Elt Ideal)) (x0 : (⟨Cert.ReferenceIdeal.S5000x64, .f32⟩ : BufTy).Contents (Elt Ideal)) (x1 : (⟨Cert.ReferenceIdeal.S200000x64, .f32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S2x3x128x128, .f32⟩ : BufTy).Contents (Elt Ideal)) (x7 : (⟨Cert.ReferenceIdeal.S2x3x128, .f32⟩ : BufTy).Contents (Elt Ideal)) (x8 : (⟨Cert.ReferenceIdeal.S2x3x128x128, .f32⟩ : BufTy).Contents (Elt Ideal)) (x9 : (⟨Cert.ReferenceIdeal.S1000000, .i32⟩ : BufTy).Contents (Elt Ideal)) (x10 : (⟨Cert.ReferenceIdeal.S1000000, .i32⟩ : BufTy).Contents (Elt Ideal)) (x11 : (⟨Cert.ReferenceIdeal.S1000000, .i32⟩ : BufTy).Contents (Elt Ideal)) (x12 : (⟨Cert.ReferenceIdeal.S1000000, .i32⟩ : BufTy).Contents (Elt Ideal)) (x13 : (⟨Cert.ReferenceIdeal.S2000000, .i32⟩ : BufTy).Contents (Elt Ideal)) (x14 : (⟨Cert.ReferenceIdeal.S2000000, .i32⟩ : BufTy).Contents (Elt Ideal))
    (hl0 : W (Proc.devRef .tc main_v68) = Cert.ReferenceIdeal.Read.val_main_v101 (F := Ideal) x0 x1 x2 x3 x4 x5 x6 x7 x8 x9 x10 x13 x14)
    (ha11 : W (Proc.devRef .tc main_arg11) = x11)
    (ha12 : W (Proc.devRef .tc main_arg12) = x12) :
    StableHlo.after hostOps4 W (Proc.devRef .tc main_v111) = Cert.ReferenceIdeal.Read.val_main_v156 (F := Ideal) x0 x1 x2 x3 x4 x5 x6 x7 x8 x9 x10 x11 x12 x13 x14 := by
  after_results_simp
  rw [hl0, ha11, ha12]
  rfl

theorem at_main_v129 (W : Valuation τ sig (Elt Ideal)) (x0 : (⟨Cert.ReferenceIdeal.S5000x64, .f32⟩ : BufTy).Contents (Elt Ideal)) (x1 : (⟨Cert.ReferenceIdeal.S200000x64, .f32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S2x3x128x128, .f32⟩ : BufTy).Contents (Elt Ideal)) (x7 : (⟨Cert.ReferenceIdeal.S2x3x128, .f32⟩ : BufTy).Contents (Elt Ideal)) (x8 : (⟨Cert.ReferenceIdeal.S2x3x128x128, .f32⟩ : BufTy).Contents (Elt Ideal)) (x9 : (⟨Cert.ReferenceIdeal.S1000000, .i32⟩ : BufTy).Contents (Elt Ideal)) (x10 : (⟨Cert.ReferenceIdeal.S1000000, .i32⟩ : BufTy).Contents (Elt Ideal)) (x13 : (⟨Cert.ReferenceIdeal.S2000000, .i32⟩ : BufTy).Contents (Elt Ideal)) (x14 : (⟨Cert.ReferenceIdeal.S2000000, .i32⟩ : BufTy).Contents (Elt Ideal))
    (hl0 : W (Proc.devRef .tc main_v68) = Cert.ReferenceIdeal.Read.val_main_v101 (F := Ideal) x0 x1 x2 x3 x4 x5 x6 x7 x8 x9 x10 x13 x14)
    (ha13 : W (Proc.devRef .tc main_arg13) = x13)
    (ha14 : W (Proc.devRef .tc main_arg14) = x14) :
    StableHlo.after hostOps4 W (Proc.devRef .tc main_v129) = Cert.ReferenceIdeal.Read.val_main_v186 (F := Ideal) x0 x1 x2 x3 x4 x5 x6 x7 x8 x9 x10 x13 x14 := by
  after_results_simp
  rw [hl0, ha13, ha14]
  rfl

theorem at_main_v131 (W : Valuation τ sig (Elt Ideal)) (x6 : (⟨Cert.ReferenceIdeal.S2x3x128x128, .f32⟩ : BufTy).Contents (Elt Ideal))
    (ha6 : W (Proc.devRef .tc main_arg6) = x6) :
    StableHlo.after hostOps4 W (Proc.devRef .tc main_v131) = Cert.ReferenceIdeal.Read.val_main_v104 (F := Ideal) x6 := by
  after_results_simp
  rw [ha6]
  rfl

theorem at_main_v133 (W : Valuation τ sig (Elt Ideal)) (x7 : (⟨Cert.ReferenceIdeal.S2x3x128, .f32⟩ : BufTy).Contents (Elt Ideal))
    (ha7 : W (Proc.devRef .tc main_arg7) = x7) :
    StableHlo.after hostOps4 W (Proc.devRef .tc main_v133) = Cert.ReferenceIdeal.Read.val_main_v106 (F := Ideal) x7 := by
  after_results_simp
  rw [ha7]
  rfl

theorem at_main_v135 (W : Valuation τ sig (Elt Ideal)) (x8 : (⟨Cert.ReferenceIdeal.S2x3x128x128, .f32⟩ : BufTy).Contents (Elt Ideal))
    (ha8 : W (Proc.devRef .tc main_arg8) = x8) :
    StableHlo.after hostOps4 W (Proc.devRef .tc main_v135) = Cert.ReferenceIdeal.Read.val_main_v108 (F := Ideal) x8 := by
  after_results_simp
  rw [ha8]
  rfl

theorem at_main_v137 (W : Valuation τ sig (Elt Ideal)) (x6 : (⟨Cert.ReferenceIdeal.S2x3x128x128, .f32⟩ : BufTy).Contents (Elt Ideal))
    (ha6 : W (Proc.devRef .tc main_arg6) = x6) :
    StableHlo.after hostOps4 W (Proc.devRef .tc main_v137) = Cert.ReferenceIdeal.Read.val_main_v164 (F := Ideal) x6 := by
  after_results_simp
  rw [ha6]
  rfl

theorem at_main_v139 (W : Valuation τ sig (Elt Ideal)) (x7 : (⟨Cert.ReferenceIdeal.S2x3x128, .f32⟩ : BufTy).Contents (Elt Ideal))
    (ha7 : W (Proc.devRef .tc main_arg7) = x7) :
    StableHlo.after hostOps4 W (Proc.devRef .tc main_v139) = Cert.ReferenceIdeal.Read.val_main_v166 (F := Ideal) x7 := by
  after_results_simp
  rw [ha7]
  rfl

theorem at_main_v141 (W : Valuation τ sig (Elt Ideal)) (x8 : (⟨Cert.ReferenceIdeal.S2x3x128x128, .f32⟩ : BufTy).Contents (Elt Ideal))
    (ha8 : W (Proc.devRef .tc main_arg8) = x8) :
    StableHlo.after hostOps4 W (Proc.devRef .tc main_v141) = Cert.ReferenceIdeal.Read.val_main_v168 (F := Ideal) x8 := by
  after_results_simp
  rw [ha8]
  rfl

/-! ## What the stretch leaves alone -/

theorem keep_main_v68 (W : Valuation τ sig (Elt Ideal)) :
    StableHlo.after hostOps4 W (Proc.devRef .tc main_v68) = W (Proc.devRef .tc main_v68) := by host_keep hostOps4

theorem keep_main_v75 (W : Valuation τ sig (Elt Ideal)) :
    StableHlo.after hostOps4 W (Proc.devRef .tc main_v75) = W (Proc.devRef .tc main_v75) := by host_keep hostOps4

theorem keep_main_arg6 (W : Valuation τ sig (Elt Ideal)) :
    StableHlo.after hostOps4 W (Proc.devRef .tc main_arg6) = W (Proc.devRef .tc main_arg6) := by host_keep hostOps4

theorem keep_main_arg7 (W : Valuation τ sig (Elt Ideal)) :
    StableHlo.after hostOps4 W (Proc.devRef .tc main_arg7) = W (Proc.devRef .tc main_arg7) := by host_keep hostOps4

theorem keep_main_arg8 (W : Valuation τ sig (Elt Ideal)) :
    StableHlo.after hostOps4 W (Proc.devRef .tc main_arg8) = W (Proc.devRef .tc main_arg8) := by host_keep hostOps4

end Cert.Sage.Host4

end
-- ==== Proof.Host5.lean ====
/-
  The second layer's species weights stretch of host operations, read from any contents at its entry.

  The stretch gathers source rows, scatter-adds them at their destinations, counts, and divides (the mean over incoming
  edges), and cuts the layer's weight matrices and bias rows out of the stacked parameters.  These are the reference
  program's own operations on the same operands: once the feature array read at the entry is a stage of the reference
  and the index and parameter arrays are the arguments, each result is the reference's corresponding stage, by
  unfolding.  A buffer no operation of the stretch writes keeps its contents.
-/
import proofs.«171973_j46256797778370_1_alg».proof.Proof.Gen.KernelIdeal.Launch
import proofs.«171973_j46256797778370_1_alg».proof.Proof.Gen.ReferenceIdeal.Read
import Idealize.ShloMosaic.Lib.StableHlo.Run

set_option maxRecDepth 16384
set_option maxHeartbeats 40000000

noncomputable section

namespace Cert.Sage.Host5

open Cert.KernelIdeal Cert.KernelIdeal.Gen
open Idealize.ShloMosaic Idealize.ShloMosaic.TcCoe Idealize.SL.Sem Idealize.ShloMosaic.StableHlo

/-- No operation of the stretch writes the buffer: each operation's one result buffer is another reference. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the stretch computes -/

theorem at_main_v144 (W : Valuation τ sig (Elt Ideal)) (x6 : (⟨Cert.ReferenceIdeal.S2x3x128x128, .f32⟩ : BufTy).Contents (Elt Ideal))
    (ha6 : W (Proc.devRef .tc main_arg6) = x6) :
    StableHlo.after hostOps5 W (Proc.devRef .tc main_v144) = Cert.ReferenceIdeal.Read.val_main_v134 (F := Ideal) x6 := by
  after_results
  rw [ha6]
  rfl

theorem at_main_v146 (W : Valuation τ sig (Elt Ideal)) (x7 : (⟨Cert.ReferenceIdeal.S2x3x128, .f32⟩ : BufTy).Contents (Elt Ideal))
    (ha7 : W (Proc.devRef .tc main_arg7) = x7) :
    StableHlo.after hostOps5 W (Proc.devRef .tc main_v146) = Cert.ReferenceIdeal.Read.val_main_v136 (F := Ideal) x7 := by
  after_results
  rw [ha7]
  rfl

theorem at_main_v148 (W : Valuation τ sig (Elt Ideal)) (x8 : (⟨Cert.ReferenceIdeal.S2x3x128x128, .f32⟩ : BufTy).Contents (Elt Ideal))
    (ha8 : W (Proc.devRef .tc main_arg8) = x8) :
    StableHlo.after hostOps5 W (Proc.devRef .tc main_v148) = Cert.ReferenceIdeal.Read.val_main_v138 (F := Ideal) x8 := by
  after_results
  rw [ha8]
  rfl

/-! ## What the stretch leaves alone -/

theorem keep_main_v75 (W : Valuation τ sig (Elt Ideal)) :
    StableHlo.after hostOps5 W (Proc.devRef .tc main_v75) = W (Proc.devRef .tc main_v75) := by host_keep hostOps5

theorem keep_main_v111 (W : Valuation τ sig (Elt Ideal)) :
    StableHlo.after hostOps5 W (Proc.devRef .tc main_v111) = W (Proc.devRef .tc main_v111) := by host_keep hostOps5

theorem keep_main_v142 (W : Valuation τ sig (Elt Ideal)) :
    StableHlo.after hostOps5 W (Proc.devRef .tc main_v142) = W (Proc.devRef .tc main_v142) := by host_keep hostOps5

end Cert.Sage.Host5

end
-- ==== Proof.Chain.lean ====
/-
  The kernel's buffers, boundary by boundary, as the reference's stages of the arguments.

  At the launch every argument buffer holds its argument.  A launch leaves its output array at the layer function of its
  operand arrays and every other buffer alone; a host stretch leaves each result at the reference's own operation of
  its operands and every other buffer alone.  So, walking the ten segments in order: the projected species and gene
  features are the reference's projections; each layer's three mean aggregations and six parameter cuts are the
  reference's; each layer's gene update is the reference's rectified half-sum of the two transforms into genes, and its
  species update the reference's rectified transform into species; the last two are the program's results.
  (Names: sx, gx = species and gene features, the digit their layer; hg, bt, sim = the aggregations over the three
  relations; wl, bl, wr with two digits = a layer's and a relation's parameters; the trailing number is the boundary.)
-/
import proofs.«171973_j46256797778370_1_alg».proof.Proof.Gen.KernelIdeal.Frame
import proofs.«171973_j46256797778370_1_alg».proof.Proof.Gen.ReferenceIdeal.Read
import proofs.«171973_j46256797778370_1_alg».proof.Proof.Launch0
import proofs.«171973_j46256797778370_1_alg».proof.Proof.Launch1
import proofs.«171973_j46256797778370_1_alg».proof.Proof.Launch2
import proofs.«171973_j46256797778370_1_alg».proof.Proof.Launch3
import proofs.«171973_j46256797778370_1_alg».proof.Proof.Launch4
import proofs.«171973_j46256797778370_1_alg».proof.Proof.Launch5
import proofs.«171973_j46256797778370_1_alg».proof.Proof.Host2
import proofs.«171973_j46256797778370_1_alg».proof.Proof.Host3
import proofs.«171973_j46256797778370_1_alg».proof.Proof.Host4
import proofs.«171973_j46256797778370_1_alg».proof.Proof.Host5

set_option maxRecDepth 16384

noncomputable section

namespace Cert.Sage.Chain

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg) (c : Dev nD)

/-! ## The argument buffers keep the arguments -/

theorem arg1_1 : W1 m ρ c (Proc.devRef .tc main_arg1) = (m ((c : Thread nD τ).loc main_arg1)) :=
  W1_of_ne m ρ c main_arg1 (by decide)

theorem arg4_1 : W1 m ρ c (Proc.devRef .tc main_arg4) = (m ((c : Thread nD τ).loc main_arg4)) :=
  W1_of_ne m ρ c main_arg4 (by decide)

theorem arg5_1 : W1 m ρ c (Proc.devRef .tc main_arg5) = (m ((c : Thread nD τ).loc main_arg5)) :=
  W1_of_ne m ρ c main_arg5 (by decide)

theorem arg6_1 : W1 m ρ c (Proc.devRef .tc main_arg6) = (m ((c : Thread nD τ).loc main_arg6)) :=
  W1_of_ne m ρ c main_arg6 (by decide)

theorem arg7_1 : W1 m ρ c (Proc.devRef .tc main_arg7) = (m ((c : Thread nD τ).loc main_arg7)) :=
  W1_of_ne m ρ c main_arg7 (by decide)

theorem arg8_1 : W1 m ρ c (Proc.devRef .tc main_arg8) = (m ((c : Thread nD τ).loc main_arg8)) :=
  W1_of_ne m ρ c main_arg8 (by decide)

theorem arg9_1 : W1 m ρ c (Proc.devRef .tc main_arg9) = (m ((c : Thread nD τ).loc main_arg9)) :=
  W1_of_ne m ρ c main_arg9 (by decide)

theorem arg10_1 : W1 m ρ c (Proc.devRef .tc main_arg10) = (m ((c : Thread nD τ).loc main_arg10)) :=
  W1_of_ne m ρ c main_arg10 (by decide)

theorem arg11_1 : W1 m ρ c (Proc.devRef .tc main_arg11) = (m ((c : Thread nD τ).loc main_arg11)) :=
  W1_of_ne m ρ c main_arg11 (by decide)

theorem arg12_1 : W1 m ρ c (Proc.devRef .tc main_arg12) = (m ((c : Thread nD τ).loc main_arg12)) :=
  W1_of_ne m ρ c main_arg12 (by decide)

theorem arg13_1 : W1 m ρ c (Proc.devRef .tc main_arg13) = (m ((c : Thread nD τ).loc main_arg13)) :=
  W1_of_ne m ρ c main_arg13 (by decide)

theorem arg14_1 : W1 m ρ c (Proc.devRef .tc main_arg14) = (m ((c : Thread nD τ).loc main_arg14)) :=
  W1_of_ne m ρ c main_arg14 (by decide)

theorem arg6_2 : W2 m ρ c (Proc.devRef .tc main_arg6) = (m ((c : Thread nD τ).loc main_arg6)) :=
  (W2_of_ne m ρ c main_arg6 (by decide)).trans (arg6_1 m ρ c)

theorem arg7_2 : W2 m ρ c (Proc.devRef .tc main_arg7) = (m ((c : Thread nD τ).loc main_arg7)) :=
  (W2_of_ne m ρ c main_arg7 (by decide)).trans (arg7_1 m ρ c)

theorem arg8_2 : W2 m ρ c (Proc.devRef .tc main_arg8) = (m ((c : Thread nD τ).loc main_arg8)) :=
  (W2_of_ne m ρ c main_arg8 (by decide)).trans (arg8_1 m ρ c)

theorem arg9_2 : W2 m ρ c (Proc.devRef .tc main_arg9) = (m ((c : Thread nD τ).loc main_arg9)) :=
  (W2_of_ne m ρ c main_arg9 (by decide)).trans (arg9_1 m ρ c)

theorem arg10_2 : W2 m ρ c (Proc.devRef .tc main_arg10) = (m ((c : Thread nD τ).loc main_arg10)) :=
  (W2_of_ne m ρ c main_arg10 (by decide)).trans (arg10_1 m ρ c)

theorem arg11_2 : W2 m ρ c (Proc.devRef .tc main_arg11) = (m ((c : Thread nD τ).loc main_arg11)) :=
  (W2_of_ne m ρ c main_arg11 (by decide)).trans (arg11_1 m ρ c)

theorem arg12_2 : W2 m ρ c (Proc.devRef .tc main_arg12) = (m ((c : Thread nD τ).loc main_arg12)) :=
  (W2_of_ne m ρ c main_arg12 (by decide)).trans (arg12_1 m ρ c)

theorem arg13_2 : W2 m ρ c (Proc.devRef .tc main_arg13) = (m ((c : Thread nD τ).loc main_arg13)) :=
  (W2_of_ne m ρ c main_arg13 (by decide)).trans (arg13_1 m ρ c)

theorem arg14_2 : W2 m ρ c (Proc.devRef .tc main_arg14) = (m ((c : Thread nD τ).loc main_arg14)) :=
  (W2_of_ne m ρ c main_arg14 (by decide)).trans (arg14_1 m ρ c)

theorem arg6_3 : W3 m ρ c (Proc.devRef .tc main_arg6) = (m ((c : Thread nD τ).loc main_arg6)) :=
  (Host2.keep_main_arg6 (W2 m ρ c)).trans (arg6_2 m ρ c)

theorem arg7_3 : W3 m ρ c (Proc.devRef .tc main_arg7) = (m ((c : Thread nD τ).loc main_arg7)) :=
  (Host2.keep_main_arg7 (W2 m ρ c)).trans (arg7_2 m ρ c)

theorem arg8_3 : W3 m ρ c (Proc.devRef .tc main_arg8) = (m ((c : Thread nD τ).loc main_arg8)) :=
  (Host2.keep_main_arg8 (W2 m ρ c)).trans (arg8_2 m ρ c)

theorem arg9_3 : W3 m ρ c (Proc.devRef .tc main_arg9) = (m ((c : Thread nD τ).loc main_arg9)) :=
  (Host2.keep_main_arg9 (W2 m ρ c)).trans (arg9_2 m ρ c)

theorem arg10_3 : W3 m ρ c (Proc.devRef .tc main_arg10) = (m ((c : Thread nD τ).loc main_arg10)) :=
  (Host2.keep_main_arg10 (W2 m ρ c)).trans (arg10_2 m ρ c)

theorem arg11_3 : W3 m ρ c (Proc.devRef .tc main_arg11) = (m ((c : Thread nD τ).loc main_arg11)) :=
  (Host2.keep_main_arg11 (W2 m ρ c)).trans (arg11_2 m ρ c)

theorem arg12_3 : W3 m ρ c (Proc.devRef .tc main_arg12) = (m ((c : Thread nD τ).loc main_arg12)) :=
  (Host2.keep_main_arg12 (W2 m ρ c)).trans (arg12_2 m ρ c)

theorem arg13_3 : W3 m ρ c (Proc.devRef .tc main_arg13) = (m ((c : Thread nD τ).loc main_arg13)) :=
  (Host2.keep_main_arg13 (W2 m ρ c)).trans (arg13_2 m ρ c)

theorem arg14_3 : W3 m ρ c (Proc.devRef .tc main_arg14) = (m ((c : Thread nD τ).loc main_arg14)) :=
  (Host2.keep_main_arg14 (W2 m ρ c)).trans (arg14_2 m ρ c)

theorem arg6_4 : W4 m ρ c (Proc.devRef .tc main_arg6) = (m ((c : Thread nD τ).loc main_arg6)) :=
  (W4_of_ne m ρ c main_arg6 (by decide)).trans (arg6_3 m ρ c)

theorem arg7_4 : W4 m ρ c (Proc.devRef .tc main_arg7) = (m ((c : Thread nD τ).loc main_arg7)) :=
  (W4_of_ne m ρ c main_arg7 (by decide)).trans (arg7_3 m ρ c)

theorem arg8_4 : W4 m ρ c (Proc.devRef .tc main_arg8) = (m ((c : Thread nD τ).loc main_arg8)) :=
  (W4_of_ne m ρ c main_arg8 (by decide)).trans (arg8_3 m ρ c)

theorem arg9_4 : W4 m ρ c (Proc.devRef .tc main_arg9) = (m ((c : Thread nD τ).loc main_arg9)) :=
  (W4_of_ne m ρ c main_arg9 (by decide)).trans (arg9_3 m ρ c)

theorem arg10_4 : W4 m ρ c (Proc.devRef .tc main_arg10) = (m ((c : Thread nD τ).loc main_arg10)) :=
  (W4_of_ne m ρ c main_arg10 (by decide)).trans (arg10_3 m ρ c)

theorem arg11_4 : W4 m ρ c (Proc.devRef .tc main_arg11) = (m ((c : Thread nD τ).loc main_arg11)) :=
  (W4_of_ne m ρ c main_arg11 (by decide)).trans (arg11_3 m ρ c)

theorem arg12_4 : W4 m ρ c (Proc.devRef .tc main_arg12) = (m ((c : Thread nD τ).loc main_arg12)) :=
  (W4_of_ne m ρ c main_arg12 (by decide)).trans (arg12_3 m ρ c)

theorem arg13_4 : W4 m ρ c (Proc.devRef .tc main_arg13) = (m ((c : Thread nD τ).loc main_arg13)) :=
  (W4_of_ne m ρ c main_arg13 (by decide)).trans (arg13_3 m ρ c)

theorem arg14_4 : W4 m ρ c (Proc.devRef .tc main_arg14) = (m ((c : Thread nD τ).loc main_arg14)) :=
  (W4_of_ne m ρ c main_arg14 (by decide)).trans (arg14_3 m ρ c)

theorem arg6_5 : W5 m ρ c (Proc.devRef .tc main_arg6) = (m ((c : Thread nD τ).loc main_arg6)) :=
  (Host3.keep_main_arg6 (W4 m ρ c)).trans (arg6_4 m ρ c)

theorem arg7_5 : W5 m ρ c (Proc.devRef .tc main_arg7) = (m ((c : Thread nD τ).loc main_arg7)) :=
  (Host3.keep_main_arg7 (W4 m ρ c)).trans (arg7_4 m ρ c)

theorem arg8_5 : W5 m ρ c (Proc.devRef .tc main_arg8) = (m ((c : Thread nD τ).loc main_arg8)) :=
  (Host3.keep_main_arg8 (W4 m ρ c)).trans (arg8_4 m ρ c)

theorem arg9_5 : W5 m ρ c (Proc.devRef .tc main_arg9) = (m ((c : Thread nD τ).loc main_arg9)) :=
  (Host3.keep_main_arg9 (W4 m ρ c)).trans (arg9_4 m ρ c)

theorem arg10_5 : W5 m ρ c (Proc.devRef .tc main_arg10) = (m ((c : Thread nD τ).loc main_arg10)) :=
  (Host3.keep_main_arg10 (W4 m ρ c)).trans (arg10_4 m ρ c)

theorem arg11_5 : W5 m ρ c (Proc.devRef .tc main_arg11) = (m ((c : Thread nD τ).loc main_arg11)) :=
  (Host3.keep_main_arg11 (W4 m ρ c)).trans (arg11_4 m ρ c)

theorem arg12_5 : W5 m ρ c (Proc.devRef .tc main_arg12) = (m ((c : Thread nD τ).loc main_arg12)) :=
  (Host3.keep_main_arg12 (W4 m ρ c)).trans (arg12_4 m ρ c)

theorem arg13_5 : W5 m ρ c (Proc.devRef .tc main_arg13) = (m ((c : Thread nD τ).loc main_arg13)) :=
  (Host3.keep_main_arg13 (W4 m ρ c)).trans (arg13_4 m ρ c)

theorem arg14_5 : W5 m ρ c (Proc.devRef .tc main_arg14) = (m ((c : Thread nD τ).loc main_arg14)) :=
  (Host3.keep_main_arg14 (W4 m ρ c)).trans (arg14_4 m ρ c)

theorem arg6_6 : W6 m ρ c (Proc.devRef .tc main_arg6) = (m ((c : Thread nD τ).loc main_arg6)) :=
  (W6_of_ne m ρ c main_arg6 (by decide)).trans (arg6_5 m ρ c)

theorem arg7_6 : W6 m ρ c (Proc.devRef .tc main_arg7) = (m ((c : Thread nD τ).loc main_arg7)) :=
  (W6_of_ne m ρ c main_arg7 (by decide)).trans (arg7_5 m ρ c)

theorem arg8_6 : W6 m ρ c (Proc.devRef .tc main_arg8) = (m ((c : Thread nD τ).loc main_arg8)) :=
  (W6_of_ne m ρ c main_arg8 (by decide)).trans (arg8_5 m ρ c)

theorem arg9_6 : W6 m ρ c (Proc.devRef .tc main_arg9) = (m ((c : Thread nD τ).loc main_arg9)) :=
  (W6_of_ne m ρ c main_arg9 (by decide)).trans (arg9_5 m ρ c)

theorem arg10_6 : W6 m ρ c (Proc.devRef .tc main_arg10) = (m ((c : Thread nD τ).loc main_arg10)) :=
  (W6_of_ne m ρ c main_arg10 (by decide)).trans (arg10_5 m ρ c)

theorem arg11_6 : W6 m ρ c (Proc.devRef .tc main_arg11) = (m ((c : Thread nD τ).loc main_arg11)) :=
  (W6_of_ne m ρ c main_arg11 (by decide)).trans (arg11_5 m ρ c)

theorem arg12_6 : W6 m ρ c (Proc.devRef .tc main_arg12) = (m ((c : Thread nD τ).loc main_arg12)) :=
  (W6_of_ne m ρ c main_arg12 (by decide)).trans (arg12_5 m ρ c)

theorem arg13_6 : W6 m ρ c (Proc.devRef .tc main_arg13) = (m ((c : Thread nD τ).loc main_arg13)) :=
  (W6_of_ne m ρ c main_arg13 (by decide)).trans (arg13_5 m ρ c)

theorem arg14_6 : W6 m ρ c (Proc.devRef .tc main_arg14) = (m ((c : Thread nD τ).loc main_arg14)) :=
  (W6_of_ne m ρ c main_arg14 (by decide)).trans (arg14_5 m ρ c)

theorem arg6_7 : W7 m ρ c (Proc.devRef .tc main_arg6) = (m ((c : Thread nD τ).loc main_arg6)) :=
  (Host4.keep_main_arg6 (W6 m ρ c)).trans (arg6_6 m ρ c)

theorem arg7_7 : W7 m ρ c (Proc.devRef .tc main_arg7) = (m ((c : Thread nD τ).loc main_arg7)) :=
  (Host4.keep_main_arg7 (W6 m ρ c)).trans (arg7_6 m ρ c)

theorem arg8_7 : W7 m ρ c (Proc.devRef .tc main_arg8) = (m ((c : Thread nD τ).loc main_arg8)) :=
  (Host4.keep_main_arg8 (W6 m ρ c)).trans (arg8_6 m ρ c)

theorem arg6_8 : W8 m ρ c (Proc.devRef .tc main_arg6) = (m ((c : Thread nD τ).loc main_arg6)) :=
  (W8_of_ne m ρ c main_arg6 (by decide)).trans (arg6_7 m ρ c)

theorem arg7_8 : W8 m ρ c (Proc.devRef .tc main_arg7) = (m ((c : Thread nD τ).loc main_arg7)) :=
  (W8_of_ne m ρ c main_arg7 (by decide)).trans (arg7_7 m ρ c)

theorem arg8_8 : W8 m ρ c (Proc.devRef .tc main_arg8) = (m ((c : Thread nD τ).loc main_arg8)) :=
  (W8_of_ne m ρ c main_arg8 (by decide)).trans (arg8_7 m ρ c)

/-! ## The feature, aggregation and parameter buffers -/

theorem sx0_1 : W1 m ρ c (Proc.devRef .tc main_v0) = Cert.ReferenceIdeal.Read.val_main_v3 (F := Ideal) (m ((c : Thread nD τ).loc main_arg0)) (m ((c : Thread nD τ).loc main_arg2)) (m ((c : Thread nD τ).loc main_arg3)) := by
  refine (W1_arr m ρ c 3).trans ((Launch0.final (V0 m ρ) c).trans ?_)
  rfl

theorem sx0_2 : W2 m ρ c (Proc.devRef .tc main_v0) = Cert.ReferenceIdeal.Read.val_main_v3 (F := Ideal) (m ((c : Thread nD τ).loc main_arg0)) (m ((c : Thread nD τ).loc main_arg2)) (m ((c : Thread nD τ).loc main_arg3)) :=
  (W2_of_ne m ρ c main_v0 (by decide)).trans (sx0_1 m ρ c)

theorem gx0_2 : W2 m ρ c (Proc.devRef .tc main_v1) = Cert.ReferenceIdeal.Read.val_main_v7 (F := Ideal) (m ((c : Thread nD τ).loc main_arg1)) (m ((c : Thread nD τ).loc main_arg4)) (m ((c : Thread nD τ).loc main_arg5)) := by
  refine (W2_arr m ρ c 3).trans ((Launch1.final (V1 m ρ) c).trans ?_)
  show Cert.Sage.linG (F := Ideal) (W1 m ρ c (Proc.devRef .tc main_arg1)) (W1 m ρ c (Proc.devRef .tc main_arg4)) (W1 m ρ c (Proc.devRef .tc main_arg5)) = _
  rw [arg1_1 m ρ c, arg4_1 m ρ c, arg5_1 m ρ c]
  rfl

theorem sx0_3 : W3 m ρ c (Proc.devRef .tc main_v0) = Cert.ReferenceIdeal.Read.val_main_v3 (F := Ideal) (m ((c : Thread nD τ).loc main_arg0)) (m ((c : Thread nD τ).loc main_arg2)) (m ((c : Thread nD τ).loc main_arg3)) :=
  (Host2.keep_main_v0 (W2 m ρ c)).trans (sx0_2 m ρ c)

theorem gx0_3 : W3 m ρ c (Proc.devRef .tc main_v1) = Cert.ReferenceIdeal.Read.val_main_v7 (F := Ideal) (m ((c : Thread nD τ).loc main_arg1)) (m ((c : Thread nD τ).loc main_arg4)) (m ((c : Thread nD τ).loc main_arg5)) :=
  (Host2.keep_main_v1 (W2 m ρ c)).trans (gx0_2 m ρ c)

theorem hg1_3 : W3 m ρ c (Proc.devRef .tc main_v19) = Cert.ReferenceIdeal.Read.val_main_v31 (F := Ideal) (m ((c : Thread nD τ).loc main_arg0)) (m ((c : Thread nD τ).loc main_arg2)) (m ((c : Thread nD τ).loc main_arg3)) (m ((c : Thread nD τ).loc main_arg9)) (m ((c : Thread nD τ).loc main_arg10)) :=
  Host2.at_main_v19 (W2 m ρ c) (m ((c : Thread nD τ).loc main_arg0)) (m ((c : Thread nD τ).loc main_arg2)) (m ((c : Thread nD τ).loc main_arg3)) (m ((c : Thread nD τ).loc main_arg9)) (m ((c : Thread nD τ).loc main_arg10)) (sx0_2 m ρ c) (arg9_2 m ρ c) (arg10_2 m ρ c)

theorem bt1_3 : W3 m ρ c (Proc.devRef .tc main_v37) = Cert.ReferenceIdeal.Read.val_main_v61 (F := Ideal) (m ((c : Thread nD τ).loc main_arg1)) (m ((c : Thread nD τ).loc main_arg4)) (m ((c : Thread nD τ).loc main_arg5)) (m ((c : Thread nD τ).loc main_arg11)) (m ((c : Thread nD τ).loc main_arg12)) :=
  Host2.at_main_v37 (W2 m ρ c) (m ((c : Thread nD τ).loc main_arg1)) (m ((c : Thread nD τ).loc main_arg4)) (m ((c : Thread nD τ).loc main_arg5)) (m ((c : Thread nD τ).loc main_arg11)) (m ((c : Thread nD τ).loc main_arg12)) (gx0_2 m ρ c) (arg11_2 m ρ c) (arg12_2 m ρ c)

theorem sim1_3 : W3 m ρ c (Proc.devRef .tc main_v55) = Cert.ReferenceIdeal.Read.val_main_v91 (F := Ideal) (m ((c : Thread nD τ).loc main_arg1)) (m ((c : Thread nD τ).loc main_arg4)) (m ((c : Thread nD τ).loc main_arg5)) (m ((c : Thread nD τ).loc main_arg13)) (m ((c : Thread nD τ).loc main_arg14)) :=
  Host2.at_main_v55 (W2 m ρ c) (m ((c : Thread nD τ).loc main_arg1)) (m ((c : Thread nD τ).loc main_arg4)) (m ((c : Thread nD τ).loc main_arg5)) (m ((c : Thread nD τ).loc main_arg13)) (m ((c : Thread nD τ).loc main_arg14)) (gx0_2 m ρ c) (arg13_2 m ρ c) (arg14_2 m ρ c)

theorem wl10_3 : W3 m ρ c (Proc.devRef .tc main_v57) = Cert.ReferenceIdeal.Read.val_main_v9 (F := Ideal) (m ((c : Thread nD τ).loc main_arg6)) :=
  Host2.at_main_v57 (W2 m ρ c) (m ((c : Thread nD τ).loc main_arg6)) (arg6_2 m ρ c)

theorem bl10_3 : W3 m ρ c (Proc.devRef .tc main_v59) = Cert.ReferenceIdeal.Read.val_main_v11 (F := Ideal) (m ((c : Thread nD τ).loc main_arg7)) :=
  Host2.at_main_v59 (W2 m ρ c) (m ((c : Thread nD τ).loc main_arg7)) (arg7_2 m ρ c)

theorem wr10_3 : W3 m ρ c (Proc.devRef .tc main_v61) = Cert.ReferenceIdeal.Read.val_main_v13 (F := Ideal) (m ((c : Thread nD τ).loc main_arg8)) :=
  Host2.at_main_v61 (W2 m ρ c) (m ((c : Thread nD τ).loc main_arg8)) (arg8_2 m ρ c)

theorem wl12_3 : W3 m ρ c (Proc.devRef .tc main_v63) = Cert.ReferenceIdeal.Read.val_main_v69 (F := Ideal) (m ((c : Thread nD τ).loc main_arg6)) :=
  Host2.at_main_v63 (W2 m ρ c) (m ((c : Thread nD τ).loc main_arg6)) (arg6_2 m ρ c)

theorem bl12_3 : W3 m ρ c (Proc.devRef .tc main_v65) = Cert.ReferenceIdeal.Read.val_main_v71 (F := Ideal) (m ((c : Thread nD τ).loc main_arg7)) :=
  Host2.at_main_v65 (W2 m ρ c) (m ((c : Thread nD τ).loc main_arg7)) (arg7_2 m ρ c)

theorem wr12_3 : W3 m ρ c (Proc.devRef .tc main_v67) = Cert.ReferenceIdeal.Read.val_main_v73 (F := Ideal) (m ((c : Thread nD τ).loc main_arg8)) :=
  Host2.at_main_v67 (W2 m ρ c) (m ((c : Thread nD τ).loc main_arg8)) (arg8_2 m ρ c)

theorem gx1_4 : W4 m ρ c (Proc.devRef .tc main_v68) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  refine (W4_arr m ρ c 9).trans ((Launch2.final (V3 m ρ) c).trans ?_)
  show Cert.Sage.updG (F := Ideal) (W3 m ρ c (Proc.devRef .tc main_v19)) (W3 m ρ c (Proc.devRef .tc main_v55)) (W3 m ρ c (Proc.devRef .tc main_v1)) (W3 m ρ c (Proc.devRef .tc main_v57)) (W3 m ρ c (Proc.devRef .tc main_v59)) (W3 m ρ c (Proc.devRef .tc main_v61)) (W3 m ρ c (Proc.devRef .tc main_v63)) (W3 m ρ c (Proc.devRef .tc main_v65)) (W3 m ρ c (Proc.devRef .tc main_v67)) = _
  rw [hg1_3 m ρ c, sim1_3 m ρ c, gx0_3 m ρ c, wl10_3 m ρ c, bl10_3 m ρ c, wr10_3 m ρ c, wl12_3 m ρ c, bl12_3 m ρ c, wr12_3 m ρ c]
  rfl

theorem sx0_4 : W4 m ρ c (Proc.devRef .tc main_v0) = Cert.ReferenceIdeal.Read.val_main_v3 (F := Ideal) (m ((c : Thread nD τ).loc main_arg0)) (m ((c : Thread nD τ).loc main_arg2)) (m ((c : Thread nD τ).loc main_arg3)) :=
  (W4_of_ne m ρ c main_v0 (by decide)).trans (sx0_3 m ρ c)

theorem bt1_4 : W4 m ρ c (Proc.devRef .tc main_v37) = Cert.ReferenceIdeal.Read.val_main_v61 (F := Ideal) (m ((c : Thread nD τ).loc main_arg1)) (m ((c : Thread nD τ).loc main_arg4)) (m ((c : Thread nD τ).loc main_arg5)) (m ((c : Thread nD τ).loc main_arg11)) (m ((c : Thread nD τ).loc main_arg12)) :=
  (W4_of_ne m ρ c main_v37 (by decide)).trans (bt1_3 m ρ c)

theorem sx0_5 : W5 m ρ c (Proc.devRef .tc main_v0) = Cert.ReferenceIdeal.Read.val_main_v3 (F := Ideal) (m ((c : Thread nD τ).loc main_arg0)) (m ((c : Thread nD τ).loc main_arg2)) (m ((c : Thread nD τ).loc main_arg3)) :=
  (Host3.keep_main_v0 (W4 m ρ c)).trans (sx0_4 m ρ c)

theorem bt1_5 : W5 m ρ c (Proc.devRef .tc main_v37) = Cert.ReferenceIdeal.Read.val_main_v61 (F := Ideal) (m ((c : Thread nD τ).loc main_arg1)) (m ((c : Thread nD τ).loc main_arg4)) (m ((c : Thread nD τ).loc main_arg5)) (m ((c : Thread nD τ).loc main_arg11)) (m ((c : Thread nD τ).loc main_arg12)) :=
  (Host3.keep_main_v37 (W4 m ρ c)).trans (bt1_4 m ρ c)

theorem gx1_5 : W5 m ρ c (Proc.devRef .tc main_v68) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) :=
  (Host3.keep_main_v68 (W4 m ρ c)).trans (gx1_4 m ρ c)

theorem wl11_5 : W5 m ρ c (Proc.devRef .tc main_v70) = Cert.ReferenceIdeal.Read.val_main_v39 (F := Ideal) (m ((c : Thread nD τ).loc main_arg6)) :=
  Host3.at_main_v70 (W4 m ρ c) (m ((c : Thread nD τ).loc main_arg6)) (arg6_4 m ρ c)

theorem bl11_5 : W5 m ρ c (Proc.devRef .tc main_v72) = Cert.ReferenceIdeal.Read.val_main_v41 (F := Ideal) (m ((c : Thread nD τ).loc main_arg7)) :=
  Host3.at_main_v72 (W4 m ρ c) (m ((c : Thread nD τ).loc main_arg7)) (arg7_4 m ρ c)

theorem wr11_5 : W5 m ρ c (Proc.devRef .tc main_v74) = Cert.ReferenceIdeal.Read.val_main_v43 (F := Ideal) (m ((c : Thread nD τ).loc main_arg8)) :=
  Host3.at_main_v74 (W4 m ρ c) (m ((c : Thread nD τ).loc main_arg8)) (arg8_4 m ρ c)

theorem sx1_6 : W6 m ρ c (Proc.devRef .tc main_v75) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  refine (W6_arr m ρ c 5).trans ((Launch3.final (V5 m ρ) c).trans ?_)
  show Cert.Sage.updS (F := Ideal) (W5 m ρ c (Proc.devRef .tc main_v37)) (W5 m ρ c (Proc.devRef .tc main_v0)) (W5 m ρ c (Proc.devRef .tc main_v70)) (W5 m ρ c (Proc.devRef .tc main_v72)) (W5 m ρ c (Proc.devRef .tc main_v74)) = _
  rw [bt1_5 m ρ c, sx0_5 m ρ c, wl11_5 m ρ c, bl11_5 m ρ c, wr11_5 m ρ c]
  rfl

theorem gx1_6 : W6 m ρ c (Proc.devRef .tc main_v68) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) :=
  (W6_of_ne m ρ c main_v68 (by decide)).trans (gx1_5 m ρ c)

theorem gx1_7 : W7 m ρ c (Proc.devRef .tc main_v68) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) :=
  (Host4.keep_main_v68 (W6 m ρ c)).trans (gx1_6 m ρ c)

theorem sx1_7 : W7 m ρ c (Proc.devRef .tc main_v75) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  (Host4.keep_main_v75 (W6 m ρ c)).trans (sx1_6 m ρ c)

theorem hg2_7 : W7 m ρ c (Proc.devRef .tc main_v93) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  Host4.at_main_v93 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (sx1_6 m ρ c) (arg9_6 m ρ c) (arg10_6 m ρ c)

theorem bt2_7 : W7 m ρ c (Proc.devRef .tc main_v111) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  Host4.at_main_v111 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (gx1_6 m ρ c) (arg11_6 m ρ c) (arg12_6 m ρ c)

theorem sim2_7 : W7 m ρ c (Proc.devRef .tc main_v129) = Cert.ReferenceIdeal.Read.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) :=
  Host4.at_main_v129 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (gx1_6 m ρ c) (arg13_6 m ρ c) (arg14_6 m ρ c)

theorem wl20_7 : W7 m ρ c (Proc.devRef .tc main_v131) = Cert.ReferenceIdeal.Read.val_main_v104 (F := Ideal) (m ((c : Thread nD τ).loc main_arg6)) :=
  Host4.at_main_v131 (W6 m ρ c) (m ((c : Thread nD τ).loc main_arg6)) (arg6_6 m ρ c)

theorem bl20_7 : W7 m ρ c (Proc.devRef .tc main_v133) = Cert.ReferenceIdeal.Read.val_main_v106 (F := Ideal) (m ((c : Thread nD τ).loc main_arg7)) :=
  Host4.at_main_v133 (W6 m ρ c) (m ((c : Thread nD τ).loc main_arg7)) (arg7_6 m ρ c)

theorem wr20_7 : W7 m ρ c (Proc.devRef .tc main_v135) = Cert.ReferenceIdeal.Read.val_main_v108 (F := Ideal) (m ((c : Thread nD τ).loc main_arg8)) :=
  Host4.at_main_v135 (W6 m ρ c) (m ((c : Thread nD τ).loc main_arg8)) (arg8_6 m ρ c)

theorem wl22_7 : W7 m ρ c (Proc.devRef .tc main_v137) = Cert.ReferenceIdeal.Read.val_main_v164 (F := Ideal) (m ((c : Thread nD τ).loc main_arg6)) :=
  Host4.at_main_v137 (W6 m ρ c) (m ((c : Thread nD τ).loc main_arg6)) (arg6_6 m ρ c)

theorem bl22_7 : W7 m ρ c (Proc.devRef .tc main_v139) = Cert.ReferenceIdeal.Read.val_main_v166 (F := Ideal) (m ((c : Thread nD τ).loc main_arg7)) :=
  Host4.at_main_v139 (W6 m ρ c) (m ((c : Thread nD τ).loc main_arg7)) (arg7_6 m ρ c)

theorem wr22_7 : W7 m ρ c (Proc.devRef .tc main_v141) = Cert.ReferenceIdeal.Read.val_main_v168 (F := Ideal) (m ((c : Thread nD τ).loc main_arg8)) :=
  Host4.at_main_v141 (W6 m ρ c) (m ((c : Thread nD τ).loc main_arg8)) (arg8_6 m ρ c)

theorem gx2_8 : W8 m ρ c (Proc.devRef .tc main_v142) = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 9).trans ((Launch4.final (V7 m ρ) c).trans ?_)
  show Cert.Sage.updG (F := Ideal) (W7 m ρ c (Proc.devRef .tc main_v93)) (W7 m ρ c (Proc.devRef .tc main_v129)) (W7 m ρ c (Proc.devRef .tc main_v68)) (W7 m ρ c (Proc.devRef .tc main_v131)) (W7 m ρ c (Proc.devRef .tc main_v133)) (W7 m ρ c (Proc.devRef .tc main_v135)) (W7 m ρ c (Proc.devRef .tc main_v137)) (W7 m ρ c (Proc.devRef .tc main_v139)) (W7 m ρ c (Proc.devRef .tc main_v141)) = _
  rw [hg2_7 m ρ c, sim2_7 m ρ c, gx1_7 m ρ c, wl20_7 m ρ c, bl20_7 m ρ c, wr20_7 m ρ c, wl22_7 m ρ c, bl22_7 m ρ c, wr22_7 m ρ c]
  rfl

theorem sx1_8 : W8 m ρ c (Proc.devRef .tc main_v75) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  (W8_of_ne m ρ c main_v75 (by decide)).trans (sx1_7 m ρ c)

theorem bt2_8 : W8 m ρ c (Proc.devRef .tc main_v111) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_of_ne m ρ c main_v111 (by decide)).trans (bt2_7 m ρ c)

theorem sx1_9 : W9 m ρ c (Proc.devRef .tc main_v75) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  (Host5.keep_main_v75 (W8 m ρ c)).trans (sx1_8 m ρ c)

theorem bt2_9 : W9 m ρ c (Proc.devRef .tc main_v111) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (Host5.keep_main_v111 (W8 m ρ c)).trans (bt2_8 m ρ c)

theorem gx2_9 : W9 m ρ c (Proc.devRef .tc main_v142) = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (Host5.keep_main_v142 (W8 m ρ c)).trans (gx2_8 m ρ c)

theorem wl21_9 : W9 m ρ c (Proc.devRef .tc main_v144) = Cert.ReferenceIdeal.Read.val_main_v134 (F := Ideal) (m ((c : Thread nD τ).loc main_arg6)) :=
  Host5.at_main_v144 (W8 m ρ c) (m ((c : Thread nD τ).loc main_arg6)) (arg6_8 m ρ c)

theorem bl21_9 : W9 m ρ c (Proc.devRef .tc main_v146) = Cert.ReferenceIdeal.Read.val_main_v136 (F := Ideal) (m ((c : Thread nD τ).loc main_arg7)) :=
  Host5.at_main_v146 (W8 m ρ c) (m ((c : Thread nD τ).loc main_arg7)) (arg7_8 m ρ c)

theorem wr21_9 : W9 m ρ c (Proc.devRef .tc main_v148) = Cert.ReferenceIdeal.Read.val_main_v138 (F := Ideal) (m ((c : Thread nD τ).loc main_arg8)) :=
  Host5.at_main_v148 (W8 m ρ c) (m ((c : Thread nD τ).loc main_arg8)) (arg8_8 m ρ c)

theorem sx2_10 : W10 m ρ c (Proc.devRef .tc main_v149) = Cert.ReferenceIdeal.Read.val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 5).trans ((Launch5.final (V9 m ρ) c).trans ?_)
  show Cert.Sage.updS (F := Ideal) (W9 m ρ c (Proc.devRef .tc main_v111)) (W9 m ρ c (Proc.devRef .tc main_v75)) (W9 m ρ c (Proc.devRef .tc main_v144)) (W9 m ρ c (Proc.devRef .tc main_v146)) (W9 m ρ c (Proc.devRef .tc main_v148)) = _
  rw [bt2_9 m ρ c, sx1_9 m ρ c, wl21_9 m ρ c, bl21_9 m ρ c, wr21_9 m ρ c]
  rfl

theorem gx2_10 : W10 m ρ c (Proc.devRef .tc main_v142) = Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W10_of_ne m ρ c main_v142 (by decide)).trans (gx2_9 m ρ c)

end Cert.Sage.Chain

end
-- ==== Proof.lean ====
/-
  Two layers of heterogeneous mean-aggregation message passing between 5000 species and 200000 genes: the tiled
  kernel against its plain reference, on the extended reals.

  Both programs project the two embedding tables (x · W + b), and then twice: average, for each relation, the source
  features over the edges arriving at each destination (gather, scatter-add, divide by the count, at least one);
  transform (a · Wl + bl) + x · Wr per relation; and rectify — genes take half the sum of their two relations'
  transforms, species their one.  The kernel does the projections and the transform-and-rectify steps in six launches
  that walk blocks of 5000 rows, narrowing the matrix operands to bfloat16 on the way (the identity here), and leaves
  the aggregations to the host, where they are the reference's own operations.

  Each launch's output array is ONE function of its operand arrays — a row of the output depends only on the same row
  of the row-blocked operands, and the row blocks tile the array —, and that function is the reference's stage: both a
  matrix product into a zero accumulator and the host's dot_general are the same sum Σₖ l (r, k) · w (k, c), and the
  bias row reads b (c) in either spelling.  Walking the kernel's ten segments in order therefore gives its two results
  as the reference's two result stages of the arguments, and the reference's run gives the same stages of its own
  arguments, which agree.  No law beyond the definitions of the operations is used, so finiteness of the inputs plays no part.
-/
import proofs.«171973_j46256797778370_1_alg».proof.Defs
import proofs.«171973_j46256797778370_1_alg».proof.Proof.Gen.Kernel
import proofs.«171973_j46256797778370_1_alg».proof.Proof.Gen.Kernel.Skeleton
import proofs.«171973_j46256797778370_1_alg».proof.Proof.Gen.Kernel.Launch
import proofs.«171973_j46256797778370_1_alg».proof.Proof.Gen.Kernel.Points
import proofs.«171973_j46256797778370_1_alg».proof.Proof.Gen.Kernel.Frame
import proofs.«171973_j46256797778370_1_alg».proof.Proof.Gen.KernelIdeal
import proofs.«171973_j46256797778370_1_alg».proof.Proof.Gen.KernelIdeal.Skeleton
import proofs.«171973_j46256797778370_1_alg».proof.Proof.Gen.KernelIdeal.Launch
import proofs.«171973_j46256797778370_1_alg».proof.Proof.Gen.KernelIdeal.Points
import proofs.«171973_j46256797778370_1_alg».proof.Proof.Gen.KernelIdeal.Frame
import proofs.«171973_j46256797778370_1_alg».proof.Proof.Gen.ReferenceIdeal
import proofs.«171973_j46256797778370_1_alg».proof.Proof.Gen.ReferenceIdeal.Run
import proofs.«171973_j46256797778370_1_alg».proof.Proof.Gen.ReferenceIdeal.Read
import proofs.«171973_j46256797778370_1_alg».proof.Proof.Gen.Pre_finite_inputs
import proofs.«171973_j46256797778370_1_alg».proof.Proof.KernelRun
import proofs.«171973_j46256797778370_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The idealized kernel's run: the species result and the gene result end at the reference's two result stages of the
    kernel's own arguments, and the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v149) = Cert.ReferenceIdeal.Read.val_main_v197 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_v142) = Cert.ReferenceIdeal.Read.val_main_v196 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono
    (fun r h c => ⟨(h c).1.trans (Cert.Sage.Chain.sx2_10 m ρ c), (h c).2.1.trans (Cert.Sage.Chain.gx2_10 m ρ c), (h c).2.2⟩)
    (Cert.KernelIdeal.Whole.run (F := Ideal) m ρ)

/-- The idealized reference's run: its two results end at its two result stages of its own arguments. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v197) = Cert.ReferenceIdeal.Read.val_main_v197 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_v196) = Cert.ReferenceIdeal.Read.val_main_v196 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run Cert.ReferenceIdeal.defs _ _).mono
    (fun r h c => ⟨(h c).1.trans (Cert.ReferenceIdeal.Read.val_main_v197_eq m c), (h c).2.1.trans (Cert.ReferenceIdeal.Read.val_main_v196_eq m c), (h c).2.2⟩)
    (Cert.ReferenceIdeal.Value.run (F := Ideal) m ρ)

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the fifteen arguments both programs end at the same two stages of the same arrays. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ?_) (reference_run m' ρ')
  obtain ⟨a0, a1, a2, a3, a4, a5, a6, a7, a8, a9, a10, a11, a12, a13, a14⟩ := hagree c
  refine ⟨(h c).1.trans ?_, (h c).2.1.trans ?_, (h c).2.2⟩
  · rw [a0, a1, a2, a3, a4, a5, a6, a7, a8, a9, a10, a11, a12, a13, a14]
  · rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
